-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xCE6E6B28#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x1 : Shape := ⟨2, ![8192, 1]⟩
abbrev S512x128 : Shape := ⟨2, ![512, 128]⟩
abbrev S128x512 : Shape := ⟨2, ![128, 512]⟩
abbrev S512x1 : Shape := ⟨2, ![512, 1]⟩
abbrev S512x512 : Shape := ⟨2, ![512, 512]⟩
abbrev S512 : Shape := ⟨1, ![512]⟩
abbrev S8192 : Shape := ⟨1, ![8192]⟩

abbrev nBuf : Space → Nat
  | .hbm => 36
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S4096x128, .f32⟩
  | .hbm, ⟨15, _⟩ => ⟨S4096x128, .f32⟩
  | .hbm, ⟨16, _⟩ => ⟨S8192x128, .f32⟩
  | .hbm, ⟨17, _⟩ => ⟨S8192x128, .bf16⟩
  | .hbm, ⟨18, _⟩ => ⟨S128x8192, .bf16⟩
  | .hbm, ⟨19, _⟩ => ⟨S8192x1, .f32⟩
  | .hbm, ⟨20, _⟩ => ⟨S8192, .f32⟩
  | .hbm, ⟨21, _⟩ => ⟨S4096x128, .f32⟩
  | .hbm, ⟨22, _⟩ => ⟨S_, .f32⟩
  | .hbm, ⟨23, _⟩ => ⟨S4096, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S512x128, .bf16⟩
  | .local _ .vmem, ⟨1, _⟩ => ⟨S512x128, .bf16⟩
  | .local _ .vmem, ⟨2, _⟩ => ⟨S128x512, .bf16⟩
  | .local _ .vmem, ⟨3, _⟩ => ⟨S128x512, .bf16⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  bitsLt_bf16_f32 : FTy.bits .bf16 < FTy.bits .f32
  transposes_S8192x128_S128x8192_1_0 : S8192x128.Transposes [1, 0] S128x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  shapeCasts_S8192x1_S8192 : S8192x1.ShapeCasts S8192
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .bf16 = 32 ∨ (Rect.block (s := S8192x128) S512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x8192.size a
  hwx0_1 : ∀ i : grid0.Coords, EltTy.bits .bf16 = 32 ∨ (Rect.block (s := S128x8192) S128x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v7) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 91
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S4096x128, .f32⟩
  | .hbm, ⟨15, _⟩ => ⟨S4096x128, .f32⟩
  | .hbm, ⟨16, _⟩ => ⟨S8192x128, .f32⟩
  | .hbm, ⟨17, _⟩ => ⟨S128x8192, .f32⟩
  | .hbm, ⟨18, _⟩ => ⟨S8192x8192, .f32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S4096x1, .i32⟩
  | .hbm, ⟨39, _⟩ => ⟨S4096x2, .i32⟩
  | .hbm, ⟨40, _⟩ => ⟨S4096, .f32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096x1, .i32⟩
  | .hbm, ⟨60, _⟩ => ⟨S4096x2, .i32⟩
  | .hbm, ⟨61, _⟩ => ⟨S4096, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192, .f32⟩
  | .hbm, ⟨67, _⟩ => ⟨S8192x8192, .i32⟩
  | .hbm, ⟨68, _⟩ => ⟨S8192x8192, .i32⟩
  | .hbm, ⟨69, _⟩ => ⟨S_, .i32⟩
  | .hbm, ⟨70, _⟩ => ⟨S8192x8192, .i32⟩
  | .hbm, ⟨71, _⟩ => ⟨S8192x8192, .i32⟩
  | .hbm, ⟨72, _⟩ => ⟨S8192x8192, .i1⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.RefRun.lean ====
/-
  The run of the reference program, which is a straight line of 89 tensor operations: every weakly fair execution
  terminates with the result buffer at the reference's value of the two arguments' launch contents
  (`Read.val_main_v63`, the composition of the named stages of the reference's value), and the two arguments unchanged.

  What the buffers hold after the whole line is computed stretch by stretch: the line is cut into four consecutive
  stretches; for each stretch, from ANY contents of the buffers, the contents it leaves in the buffers a later stretch
  reads are stated as the reference's named stages of what the stretch itself reads; the four statements then chain
  (`after (l₁ ++ l₂) V = after l₂ (after l₁ V)`).
-/
import proofs.«160661_j53128745451704_2_alg».proof.Proof.Gen.ReferenceIdeal
import proofs.«160661_j53128745451704_2_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in four consecutive stretches -/

/-- Operations 1–17: the two arguments normalised row by row, stacked, transposed, and the stacked array's product
    with its transpose (`main_v8`). -/
abbrev seg1 : List (HloOp τ sig (Elt F)) :=
  [ TRef.binary (TRef.of (T := ⟨S4096x128, .f32⟩) main_arg0) (TRef.of (T := ⟨S4096x128, .f32⟩) main_arg0) (TRef.of (T := ⟨S4096x128, .f32⟩) main_call0_v0) mulf,
    TRef.nullary (TRef.of (T := ⟨S_, .f32⟩) main_call0_cst) (constant S_ .f32 0x00000000#32),
    TRef.binary (TRef.of (T := ⟨S4096x128, .f32⟩) main_call0_v0) (TRef.of (T := ⟨S_, .f32⟩) main_call0_cst) (TRef.of (T := ⟨S4096, .f32⟩) main_call0_v1) (fun x v => Host.reduceAdd x v reducesTo_S4096x128_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    unary main_v0 main_v1 (broadcastInDim S4096x128 ![0, 1] bcast_S4096x1_S4096x128_0_1 : (⟨S4096x1, .f32⟩ : BufTy).Contents (Elt F) → (⟨S4096x128, .f32⟩ : BufTy).Contents (Elt F)),
    binary main_arg0 main_v1 main_v2 (Host.divf : (⟨S4096x128, .f32⟩ : BufTy).Contents (Elt F) → (⟨S4096x128, .f32⟩ : BufTy).Contents (Elt F) → (⟨S4096x128, .f32⟩ : BufTy).Contents (Elt F)),
    TRef.binary (TRef.of (T := ⟨S4096x128, .f32⟩) main_arg1) (TRef.of (T := ⟨S4096x128, .f32⟩) main_arg1) (TRef.of (T := ⟨S4096x128, .f32⟩) main_call1_v0) mulf,
    TRef.nullary (TRef.of (T := ⟨S_, .f32⟩) main_call1_cst) (constant S_ .f32 0x00000000#32),
    TRef.binary (TRef.of (T := ⟨S4096x128, .f32⟩) main_call1_v0) (TRef.of (T := ⟨S_, .f32⟩) main_call1_cst) (TRef.of (T := ⟨S4096, .f32⟩) main_call1_v1) (fun x v => Host.reduceAdd x v reducesTo_S4096x128_S4096_d1 h_S_),
    TRef.unary (TRef.of (T := ⟨S4096, .f32⟩) main_call1_v1) (TRef.of (T := ⟨S4096x1, .f32⟩) main_call1_v2) (broadcastInDim S4096x1 ![0] bcast_S4096_S4096x1_0),
    TRef.unary (TRef.of (T := ⟨S4096x1, .f32⟩) main_call1_v2) (TRef.of (T := ⟨S4096x1, .f32⟩) main_v3) Host.sqrt,
    unary main_v3 main_v4 (broadcastInDim S4096x128 ![0, 1] bcast_S4096x1_S4096x128_0_1 : (⟨S4096x1, .f32⟩ : BufTy).Contents (Elt F) → (⟨S4096x128, .f32⟩ : BufTy).Contents (Elt F)),
    binary main_arg1 main_v4 main_v5 (Host.divf : (⟨S4096x128, .f32⟩ : BufTy).Contents (Elt F) → (⟨S4096x128, .f32⟩ : BufTy).Contents (Elt F) → (⟨S4096x128, .f32⟩ : BufTy).Contents (Elt F)),
    binary main_v2 main_v5 main_v6 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    unary main_v6 main_v7 ((transpose S128x8192 [1, 0] · transposes_S8192x128_S128x8192_1_0) : (⟨S8192x128, .f32⟩ : BufTy).Contents (Elt F) → (⟨S128x8192, .f32⟩ : BufTy).Contents (Elt F)),
    binary main_v6 main_v7 main_v8 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)) ]

/-- Operations 18–39: the index pairs (r, r + 4096) and the entries of `main_v8` they name (`main_v25`). -/
abbrev seg2 : List (HloOp τ sig (Elt F)) :=
  [ nullary main_v9 (iotaInDim S4096 32 0),
    nullary main_c (constantI S_ 32 4096#32),
    unary main_c main_v10 (broadcastInDim S4096 ![] bcast_S_S4096 : (⟨S_, .i32⟩ : BufTy).Contents (Elt F) → (⟨S4096, .i32⟩ : BufTy).Contents (Elt F)),
    binary main_v9 main_v10 main_v11 (addi : (⟨S4096, .i32⟩ : BufTy).Contents (Elt F) → (⟨S4096, .i32⟩ : BufTy).Contents (Elt F) → (⟨S4096, .i32⟩ : BufTy).Contents (Elt F)),
    nullary main_c_0 (constantI S_ 32 0#32),
    unary main_c_0 main_v12 (broadcastInDim S4096 ![] bcast_S_S4096 : (⟨S_, .i32⟩ : BufTy).Contents (Elt F) → (⟨S4096, .i32⟩ : BufTy).Contents (Elt F)),
    binary main_v9 main_v12 main_v13 (cmpi .slt : (⟨S4096, .i32⟩ : BufTy).Contents (Elt F) → (⟨S4096, .i32⟩ : BufTy).Contents (Elt F) → (⟨S4096, .i1⟩ : BufTy).Contents (Elt F)),
    nullary main_c_1 (constantI S_ 32 8192#32),
    unary main_c_1 main_v14 (broadcastInDim S4096 ![] bcast_S_S4096 : (⟨S_, .i32⟩ : BufTy).Contents (Elt F) → (⟨S4096, .i32⟩ : BufTy).Contents (Elt F)),
    binary main_v9 main_v14 main_v15 (addi : (⟨S4096, .i32⟩ : BufTy).Contents (Elt F) → (⟨S4096, .i32⟩ : BufTy).Contents (Elt F) → (⟨S4096, .i32⟩ : BufTy).Contents (Elt F)),
    ternary main_v13 main_v15 main_v9 main_v16 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_2 (constantI S_ 32 0#32),
    unary main_c_2 main_v17 (broadcastInDim S4096 ![] bcast_S_S4096 : (⟨S_, .i32⟩ : BufTy).Contents (Elt F) → (⟨S4096, .i32⟩ : BufTy).Contents (Elt F)),
    binary main_v11 main_v17 main_v18 (cmpi .slt : (⟨S4096, .i32⟩ : BufTy).Contents (Elt F) → (⟨S4096, .i32⟩ : BufTy).Contents (Elt F) → (⟨S4096, .i1⟩ : BufTy).Contents (Elt F)),
    nullary main_c_3 (constantI S_ 32 8192#32),
    unary main_c_3 main_v19 (broadcastInDim S4096 ![] bcast_S_S4096 : (⟨S_, .i32⟩ : BufTy).Contents (Elt F) → (⟨S4096, .i32⟩ : BufTy).Contents (Elt F)),
    binary main_v11 main_v19 main_v20 (addi : (⟨S4096, .i32⟩ : BufTy).Contents (Elt F) → (⟨S4096, .i32⟩ : BufTy).Contents (Elt F) → (⟨S4096, .i32⟩ : BufTy).Contents (Elt F)),
    ternary main_v18 main_v20 main_v11 main_v21 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v16 main_v22 (broadcastInDim S4096x1 ![0] bcast_S4096_S4096x1_0 : (⟨S4096, .i32⟩ : BufTy).Contents (Elt F) → (⟨S4096x1, .i32⟩ : BufTy).Contents (Elt F)),
    unary main_v21 main_v23 (broadcastInDim S4096x1 ![0] bcast_S4096_S4096x1_0 : (⟨S4096, .i32⟩ : BufTy).Contents (Elt F) → (⟨S4096x1, .i32⟩ : BufTy).Contents (Elt F)),
    binary main_v22 main_v23 main_v24 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v8 main_v24 main_v25 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

/-- Operations 40–60: the index pairs (r + 4096, r) and the entries of `main_v8` they name (`main_v41`). -/
abbrev seg3 : List (HloOp τ sig (Elt F)) :=
  [ nullary main_c_4 (constantI S_ 32 4096#32),
    unary main_c_4 main_v26 (broadcastInDim S4096 ![] bcast_S_S4096 : (⟨S_, .i32⟩ : BufTy).Contents (Elt F) → (⟨S4096, .i32⟩ : BufTy).Contents (Elt F)),
    binary main_v9 main_v26 main_v27 (addi : (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v28 (broadcastInDim S4096 ![] bcast_S_S4096 : (⟨S_, .i32⟩ : BufTy).Contents (Elt F) → (⟨S4096, .i32⟩ : BufTy).Contents (Elt F)),
    binary main_v27 main_v28 main_v29 (cmpi .slt : (⟨S4096, .i32⟩ : BufTy).Contents (Elt F) → (⟨S4096, .i32⟩ : BufTy).Contents (Elt F) → (⟨S4096, .i1⟩ : BufTy).Contents (Elt F)),
    nullary main_c_6 (constantI S_ 32 8192#32),
    unary main_c_6 main_v30 (broadcastInDim S4096 ![] bcast_S_S4096 : (⟨S_, .i32⟩ : BufTy).Contents (Elt F) → (⟨S4096, .i32⟩ : BufTy).Contents (Elt F)),
    binary main_v27 main_v30 main_v31 (addi : (⟨S4096, .i32⟩ : BufTy).Contents (Elt F) → (⟨S4096, .i32⟩ : BufTy).Contents (Elt F) → (⟨S4096, .i32⟩ : BufTy).Contents (Elt F)),
    ternary main_v29 main_v31 main_v27 main_v32 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_7 (constantI S_ 32 0#32),
    unary main_c_7 main_v33 (broadcastInDim S4096 ![] bcast_S_S4096 : (⟨S_, .i32⟩ : BufTy).Contents (Elt F) → (⟨S4096, .i32⟩ : BufTy).Contents (Elt F)),
    binary main_v9 main_v33 main_v34 (cmpi .slt : (⟨S4096, .i32⟩ : BufTy).Contents (Elt F) → (⟨S4096, .i32⟩ : BufTy).Contents (Elt F) → (⟨S4096, .i1⟩ : BufTy).Contents (Elt F)),
    nullary main_c_8 (constantI S_ 32 8192#32),
    unary main_c_8 main_v35 (broadcastInDim S4096 ![] bcast_S_S4096 : (⟨S_, .i32⟩ : BufTy).Contents (Elt F) → (⟨S4096, .i32⟩ : BufTy).Contents (Elt F)),
    binary main_v9 main_v35 main_v36 (addi : (⟨S4096, .i32⟩ : BufTy).Contents (Elt F) → (⟨S4096, .i32⟩ : BufTy).Contents (Elt F) → (⟨S4096, .i32⟩ : BufTy).Contents (Elt F)),
    ternary main_v34 main_v36 main_v9 main_v37 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v32 main_v38 (broadcastInDim S4096x1 ![0] bcast_S4096_S4096x1_0 : (⟨S4096, .i32⟩ : BufTy).Contents (Elt F) → (⟨S4096x1, .i32⟩ : BufTy).Contents (Elt F)),
    unary main_v37 main_v39 (broadcastInDim S4096x1 ![0] bcast_S4096_S4096x1_0 : (⟨S4096, .i32⟩ : BufTy).Contents (Elt F) → (⟨S4096x1, .i32⟩ : BufTy).Contents (Elt F)),
    binary main_v38 main_v39 main_v40 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v8 main_v40 main_v41 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

/-- Operations 61–89: the two gathered vectors stacked, the row sums of the masked exponentials of `main_v8`, and
    the mean of the negated logarithms of the quotients (`main_v63`). -/
abbrev seg4 : List (HloOp τ sig (Elt F)) :=
  [ binary main_v25 main_v41 main_v42 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
    nullary main_cst (constant S_ .f32 0x3F000000#32),
    unary main_cst main_v43 (broadcastInDim S8192 ![] bcast_S_S8192 : (⟨S_, .f32⟩ : BufTy).Contents (Elt F) → (⟨S8192, .f32⟩ : BufTy).Contents (Elt F)),
    binary main_v42 main_v43 main_v44 (Host.divf : (⟨S8192, .f32⟩ : BufTy).Contents (Elt F) → (⟨S8192, .f32⟩ : BufTy).Contents (Elt F) → (⟨S8192, .f32⟩ : BufTy).Contents (Elt F)),
    unary main_v44 main_v45 (Host.exp : (⟨S8192, .f32⟩ : BufTy).Contents (Elt F) → (⟨S8192, .f32⟩ : BufTy).Contents (Elt F)),
    nullary main_v46 (iotaInDim S8192x8192 32 0),
    nullary main_v47 (iotaInDim S8192x8192 32 1),
    nullary main_c_9 (constantI S_ 32 0#32),
    unary main_c_9 main_v48 (broadcastInDim S8192x8192 ![] bcast_S_S8192x8192 : (⟨S_, .i32⟩ : BufTy).Contents (Elt F) → (⟨S8192x8192, .i32⟩ : BufTy).Contents (Elt F)),
    binary main_v46 main_v48 main_v49 (addi : (⟨S8192x8192, .i32⟩ : BufTy).Contents (Elt F) → (⟨S8192x8192, .i32⟩ : BufTy).Contents (Elt F) → (⟨S8192x8192, .i32⟩ : BufTy).Contents (Elt F)),
    binary main_v49 main_v47 main_v50 (cmpi .eq : (⟨S8192x8192, .i32⟩ : BufTy).Contents (Elt F) → (⟨S8192x8192, .i32⟩ : BufTy).Contents (Elt F) → (⟨S8192x8192, .i1⟩ : BufTy).Contents (Elt F)),
    unary main_v50 main_v51 (uitofp .f32 : (⟨S8192x8192, .i1⟩ : BufTy).Contents (Elt F) → (⟨S8192x8192, .f32⟩ : BufTy).Contents (Elt F)),
    nullary main_cst_10 (constant S_ .f32 0x3F800000#32),
    unary main_cst_10 main_v52 (broadcastInDim S8192x8192 ![] bcast_S_S8192x8192 : (⟨S_, .f32⟩ : BufTy).Contents (Elt F) → (⟨S8192x8192, .f32⟩ : BufTy).Contents (Elt F)),
    binary main_v52 main_v51 main_v53 (subf : (⟨S8192x8192, .f32⟩ : BufTy).Contents (Elt F) → (⟨S8192x8192, .f32⟩ : BufTy).Contents (Elt F) → (⟨S8192x8192, .f32⟩ : BufTy).Contents (Elt F)),
    nullary main_cst_11 (constant S_ .f32 0x3F000000#32),
    unary main_cst_11 main_v54 (broadcastInDim S8192x8192 ![] bcast_S_S8192x8192 : (⟨S_, .f32⟩ : BufTy).Contents (Elt F) → (⟨S8192x8192, .f32⟩ : BufTy).Contents (Elt F)),
    binary main_v8 main_v54 main_v55 (Host.divf : (⟨S8192x8192, .f32⟩ : BufTy).Contents (Elt F) → (⟨S8192x8192, .f32⟩ : BufTy).Contents (Elt F) → (⟨S8192x8192, .f32⟩ : BufTy).Contents (Elt F)),
    unary main_v55 main_v56 (Host.exp : (⟨S8192x8192, .f32⟩ : BufTy).Contents (Elt F) → (⟨S8192x8192, .f32⟩ : BufTy).Contents (Elt F)),
    binary main_v53 main_v56 main_v57 (mulf : (⟨S8192x8192, .f32⟩ : BufTy).Contents (Elt F) → (⟨S8192x8192, .f32⟩ : BufTy).Contents (Elt F) → (⟨S8192x8192, .f32⟩ : BufTy).Contents (Elt F)),
    nullary main_cst_12 (constant S_ .f32 0x00000000#32),
    binary main_v57 main_cst_12 main_v58 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v45 main_v58 main_v59 (Host.divf : (⟨S8192, .f32⟩ : BufTy).Contents (Elt F) → (⟨S8192, .f32⟩ : BufTy).Contents (Elt F) → (⟨S8192, .f32⟩ : BufTy).Contents (Elt F)),
    unary main_v59 main_v60 (Host.log : (⟨S8192, .f32⟩ : BufTy).Contents (Elt F) → (⟨S8192, .f32⟩ : BufTy).Contents (Elt F)),
    unary main_v60 main_v61 (Host.negf : (⟨S8192, .f32⟩ : BufTy).Contents (Elt F) → (⟨S8192, .f32⟩ : BufTy).Contents (Elt F)),
    nullary main_cst_13 (constant S_ .f32 0x00000000#32),
    binary main_v61 main_cst_13 main_v62 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_14 (constant S_ .f32 0x46000000#32),
    binary main_v62 main_cst_14 main_v63 (Host.divf : (⟨S_, .f32⟩ : BufTy).Contents (Elt F) → (⟨S_, .f32⟩ : BufTy).Contents (Elt F) → (⟨S_, .f32⟩ : BufTy).Contents (Elt F)) ]

/-- What the buffers hold after two lists of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## Each stretch from ANY contents `W`: what it leaves in the buffers a later stretch reads

Every value a stretch computes is stated by the reference's named stage for that buffer (`Read.val_main_vN`); what a
stretch reads from an earlier one comes in as a hypothesis on `W`. A buffer a stretch does not write keeps its
contents. -/

/-- After the first stretch `main_v8` holds the product of the stacked normalised arguments with its transpose. -/
theorem seg1_v8 (W : Valuation τ sig (Elt F)) :
    after seg1 W (Proc.devRef .tc main_v8) = Read.val_main_v8 (W (Proc.devRef .tc main_arg0)) (W (Proc.devRef .tc main_arg1)) := by
  dsimp only [seg1]; after_results <;> rfl
theorem seg1_arg0 (W : Valuation τ sig (Elt F)) : after seg1 W (Proc.devRef .tc main_arg0) = W (Proc.devRef .tc main_arg0) := by
  dsimp only [seg1]; after_results <;> rfl
theorem seg1_arg1 (W : Valuation τ sig (Elt F)) : after seg1 W (Proc.devRef .tc main_arg1) = W (Proc.devRef .tc main_arg1) := by
  dsimp only [seg1]; after_results <;> rfl

/-- After the second stretch `main_v9` holds the row numbers 0 … 4095. -/
theorem seg2_v9 (W : Valuation τ sig (Elt F)) : after seg2 W (Proc.devRef .tc main_v9) = Read.val_main_v9 := by
  dsimp only [seg2]; after_results <;> rfl
theorem seg2_v8 (W : Valuation τ sig (Elt F)) : after seg2 W (Proc.devRef .tc main_v8) = W (Proc.devRef .tc main_v8) := by
  dsimp only [seg2]; after_results <;> rfl
theorem seg2_arg0 (W : Valuation τ sig (Elt F)) : after seg2 W (Proc.devRef .tc main_arg0) = W (Proc.devRef .tc main_arg0) := by
  dsimp only [seg2]; after_results <;> rfl
theorem seg2_arg1 (W : Valuation τ sig (Elt F)) : after seg2 W (Proc.devRef .tc main_arg1) = W (Proc.devRef .tc main_arg1) := by
  dsimp only [seg2]; after_results <;> rfl
set_option maxHeartbeats 4000000 in
/-- After the second stretch `main_v25` holds the first gathered vector. -/
theorem seg2_v25 (W : Valuation τ sig (Elt F)) (x0 x1 : (⟨S4096x128, .f32⟩ : BufTy).Contents (Elt F))
    (h8 : W (Proc.devRef .tc main_v8) = Read.val_main_v8 x0 x1) :
    after seg2 W (Proc.devRef .tc main_v25) = Read.val_main_v25 x0 x1 := by
  dsimp only [seg2]; after_results; rw [h8]; rfl

theorem seg3_v8 (W : Valuation τ sig (Elt F)) : after seg3 W (Proc.devRef .tc main_v8) = W (Proc.devRef .tc main_v8) := by
  dsimp only [seg3]; after_results <;> rfl
theorem seg3_v25 (W : Valuation τ sig (Elt F)) : after seg3 W (Proc.devRef .tc main_v25) = W (Proc.devRef .tc main_v25) := by
  dsimp only [seg3]; after_results <;> rfl
theorem seg3_arg0 (W : Valuation τ sig (Elt F)) : after seg3 W (Proc.devRef .tc main_arg0) = W (Proc.devRef .tc main_arg0) := by
  dsimp only [seg3]; after_results <;> rfl
theorem seg3_arg1 (W : Valuation τ sig (Elt F)) : after seg3 W (Proc.devRef .tc main_arg1) = W (Proc.devRef .tc main_arg1) := by
  dsimp only [seg3]; after_results <;> rfl
set_option maxHeartbeats 4000000 in
/-- After the third stretch `main_v41` holds the second gathered vector. -/
theorem seg3_v41 (W : Valuation τ sig (Elt F)) (x0 x1 : (⟨S4096x128, .f32⟩ : BufTy).Contents (Elt F))
    (h8 : W (Proc.devRef .tc main_v8) = Read.val_main_v8 x0 x1) (h9 : W (Proc.devRef .tc main_v9) = Read.val_main_v9) :
    after seg3 W (Proc.devRef .tc main_v41) = Read.val_main_v41 x0 x1 := by
  dsimp only [seg3]; after_results; rw [h8, h9]; rfl

theorem seg4_arg0 (W : Valuation τ sig (Elt F)) : after seg4 W (Proc.devRef .tc main_arg0) = W (Proc.devRef .tc main_arg0) := by
  dsimp only [seg4]; after_results <;> rfl
theorem seg4_arg1 (W : Valuation τ sig (Elt F)) : after seg4 W (Proc.devRef .tc main_arg1) = W (Proc.devRef .tc main_arg1) := by
  dsimp only [seg4]; after_results <;> rfl
set_option maxHeartbeats 4000000 in
/-- After the fourth stretch `main_v63` holds the reference's result. -/
theorem seg4_v63 (W : Valuation τ sig (Elt F)) (x0 x1 : (⟨S4096x128, .f32⟩ : BufTy).Contents (Elt F))
    (h8 : W (Proc.devRef .tc main_v8) = Read.val_main_v8 x0 x1) (h25 : W (Proc.devRef .tc main_v25) = Read.val_main_v25 x0 x1)
    (h41 : W (Proc.devRef .tc main_v41) = Read.val_main_v41 x0 x1) :
    after seg4 W (Proc.devRef .tc main_v63) = Read.val_main_v63 x0 x1 := by
  dsimp only [seg4]; after_results_simp; rw [h8, h25, h41]; rfl

/-! ## The whole list -/

/-- @main's 89 operations, in order (a called function's operations stand in its call's place). -/
abbrev ops : List (HloOp τ sig (Elt F)) :=
  [ TRef.binary (TRef.of (T := ⟨S4096x128, .f32⟩) main_arg0) (TRef.of (T := ⟨S4096x128, .f32⟩) main_arg0) (TRef.of (T := ⟨S4096x128, .f32⟩) main_call0_v0) mulf,
    TRef.nullary (TRef.of (T := ⟨S_, .f32⟩) main_call0_cst) (constant S_ .f32 0x00000000#32),
    TRef.binary (TRef.of (T := ⟨S4096x128, .f32⟩) main_call0_v0) (TRef.of (T := ⟨S_, .f32⟩) main_call0_cst) (TRef.of (T := ⟨S4096, .f32⟩) main_call0_v1) (fun x v => Host.reduceAdd x v reducesTo_S4096x128_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    unary main_v0 main_v1 (broadcastInDim S4096x128 ![0, 1] bcast_S4096x1_S4096x128_0_1 : (⟨S4096x1, .f32⟩ : BufTy).Contents (Elt F) → (⟨S4096x128, .f32⟩ : BufTy).Contents (Elt F)),
    binary main_arg0 main_v1 main_v2 (Host.divf : (⟨S4096x128, .f32⟩ : BufTy).Contents (Elt F) → (⟨S4096x128, .f32⟩ : BufTy).Contents (Elt F) → (⟨S4096x128, .f32⟩ : BufTy).Contents (Elt F)),
    TRef.binary (TRef.of (T := ⟨S4096x128, .f32⟩) main_arg1) (TRef.of (T := ⟨S4096x128, .f32⟩) main_arg1) (TRef.of (T := ⟨S4096x128, .f32⟩) main_call1_v0) mulf,
    TRef.nullary (TRef.of (T := ⟨S_, .f32⟩) main_call1_cst) (constant S_ .f32 0x00000000#32),
    TRef.binary (TRef.of (T := ⟨S4096x128, .f32⟩) main_call1_v0) (TRef.of (T := ⟨S_, .f32⟩) main_call1_cst) (TRef.of (T := ⟨S4096, .f32⟩) main_call1_v1) (fun x v => Host.reduceAdd x v reducesTo_S4096x128_S4096_d1 h_S_),
    TRef.unary (TRef.of (T := ⟨S4096, .f32⟩) main_call1_v1) (TRef.of (T := ⟨S4096x1, .f32⟩) main_call1_v2) (broadcastInDim S4096x1 ![0] bcast_S4096_S4096x1_0),
    TRef.unary (TRef.of (T := ⟨S4096x1, .f32⟩) main_call1_v2) (TRef.of (T := ⟨S4096x1, .f32⟩) main_v3) Host.sqrt,
    unary main_v3 main_v4 (broadcastInDim S4096x128 ![0, 1] bcast_S4096x1_S4096x128_0_1 : (⟨S4096x1, .f32⟩ : BufTy).Contents (Elt F) → (⟨S4096x128, .f32⟩ : BufTy).Contents (Elt F)),
    binary main_arg1 main_v4 main_v5 (Host.divf : (⟨S4096x128, .f32⟩ : BufTy).Contents (Elt F) → (⟨S4096x128, .f32⟩ : BufTy).Contents (Elt F) → (⟨S4096x128, .f32⟩ : BufTy).Contents (Elt F)),
    binary main_v2 main_v5 main_v6 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    unary main_v6 main_v7 ((transpose S128x8192 [1, 0] · transposes_S8192x128_S128x8192_1_0) : (⟨S8192x128, .f32⟩ : BufTy).Contents (Elt F) → (⟨S128x8192, .f32⟩ : BufTy).Contents (Elt F)),
    binary main_v6 main_v7 main_v8 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_v9 (iotaInDim S4096 32 0),
    nullary main_c (constantI S_ 32 4096#32),
    unary main_c main_v10 (broadcastInDim S4096 ![] bcast_S_S4096 : (⟨S_, .i32⟩ : BufTy).Contents (Elt F) → (⟨S4096, .i32⟩ : BufTy).Contents (Elt F)),
    binary main_v9 main_v10 main_v11 (addi : (⟨S4096, .i32⟩ : BufTy).Contents (Elt F) → (⟨S4096, .i32⟩ : BufTy).Contents (Elt F) → (⟨S4096, .i32⟩ : BufTy).Contents (Elt F)),
    nullary main_c_0 (constantI S_ 32 0#32),
    unary main_c_0 main_v12 (broadcastInDim S4096 ![] bcast_S_S4096 : (⟨S_, .i32⟩ : BufTy).Contents (Elt F) → (⟨S4096, .i32⟩ : BufTy).Contents (Elt F)),
    binary main_v9 main_v12 main_v13 (cmpi .slt : (⟨S4096, .i32⟩ : BufTy).Contents (Elt F) → (⟨S4096, .i32⟩ : BufTy).Contents (Elt F) → (⟨S4096, .i1⟩ : BufTy).Contents (Elt F)),
    nullary main_c_1 (constantI S_ 32 8192#32),
    unary main_c_1 main_v14 (broadcastInDim S4096 ![] bcast_S_S4096 : (⟨S_, .i32⟩ : BufTy).Contents (Elt F) → (⟨S4096, .i32⟩ : BufTy).Contents (Elt F)),
    binary main_v9 main_v14 main_v15 (addi : (⟨S4096, .i32⟩ : BufTy).Contents (Elt F) → (⟨S4096, .i32⟩ : BufTy).Contents (Elt F) → (⟨S4096, .i32⟩ : BufTy).Contents (Elt F)),
    ternary main_v13 main_v15 main_v9 main_v16 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_2 (constantI S_ 32 0#32),
    unary main_c_2 main_v17 (broadcastInDim S4096 ![] bcast_S_S4096 : (⟨S_, .i32⟩ : BufTy).Contents (Elt F) → (⟨S4096, .i32⟩ : BufTy).Contents (Elt F)),
    binary main_v11 main_v17 main_v18 (cmpi .slt : (⟨S4096, .i32⟩ : BufTy).Contents (Elt F) → (⟨S4096, .i32⟩ : BufTy).Contents (Elt F) → (⟨S4096, .i1⟩ : BufTy).Contents (Elt F)),
    nullary main_c_3 (constantI S_ 32 8192#32),
    unary main_c_3 main_v19 (broadcastInDim S4096 ![] bcast_S_S4096 : (⟨S_, .i32⟩ : BufTy).Contents (Elt F) → (⟨S4096, .i32⟩ : BufTy).Contents (Elt F)),
    binary main_v11 main_v19 main_v20 (addi : (⟨S4096, .i32⟩ : BufTy).Contents (Elt F) → (⟨S4096, .i32⟩ : BufTy).Contents (Elt F) → (⟨S4096, .i32⟩ : BufTy).Contents (Elt F)),
    ternary main_v18 main_v20 main_v11 main_v21 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v16 main_v22 (broadcastInDim S4096x1 ![0] bcast_S4096_S4096x1_0 : (⟨S4096, .i32⟩ : BufTy).Contents (Elt F) → (⟨S4096x1, .i32⟩ : BufTy).Contents (Elt F)),
    unary main_v21 main_v23 (broadcastInDim S4096x1 ![0] bcast_S4096_S4096x1_0 : (⟨S4096, .i32⟩ : BufTy).Contents (Elt F) → (⟨S4096x1, .i32⟩ : BufTy).Contents (Elt F)),
    binary main_v22 main_v23 main_v24 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v8 main_v24 main_v25 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    nullary main_c_4 (constantI S_ 32 4096#32),
    unary main_c_4 main_v26 (broadcastInDim S4096 ![] bcast_S_S4096 : (⟨S_, .i32⟩ : BufTy).Contents (Elt F) → (⟨S4096, .i32⟩ : BufTy).Contents (Elt F)),
    binary main_v9 main_v26 main_v27 (addi : (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v28 (broadcastInDim S4096 ![] bcast_S_S4096 : (⟨S_, .i32⟩ : BufTy).Contents (Elt F) → (⟨S4096, .i32⟩ : BufTy).Contents (Elt F)),
    binary main_v27 main_v28 main_v29 (cmpi .slt : (⟨S4096, .i32⟩ : BufTy).Contents (Elt F) → (⟨S4096, .i32⟩ : BufTy).Contents (Elt F) → (⟨S4096, .i1⟩ : BufTy).Contents (Elt F)),
    nullary main_c_6 (constantI S_ 32 8192#32),
    unary main_c_6 main_v30 (broadcastInDim S4096 ![] bcast_S_S4096 : (⟨S_, .i32⟩ : BufTy).Contents (Elt F) → (⟨S4096, .i32⟩ : BufTy).Contents (Elt F)),
    binary main_v27 main_v30 main_v31 (addi : (⟨S4096, .i32⟩ : BufTy).Contents (Elt F) → (⟨S4096, .i32⟩ : BufTy).Contents (Elt F) → (⟨S4096, .i32⟩ : BufTy).Contents (Elt F)),
    ternary main_v29 main_v31 main_v27 main_v32 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_7 (constantI S_ 32 0#32),
    unary main_c_7 main_v33 (broadcastInDim S4096 ![] bcast_S_S4096 : (⟨S_, .i32⟩ : BufTy).Contents (Elt F) → (⟨S4096, .i32⟩ : BufTy).Contents (Elt F)),
    binary main_v9 main_v33 main_v34 (cmpi .slt : (⟨S4096, .i32⟩ : BufTy).Contents (Elt F) → (⟨S4096, .i32⟩ : BufTy).Contents (Elt F) → (⟨S4096, .i1⟩ : BufTy).Contents (Elt F)),
    nullary main_c_8 (constantI S_ 32 8192#32),
    unary main_c_8 main_v35 (broadcastInDim S4096 ![] bcast_S_S4096 : (⟨S_, .i32⟩ : BufTy).Contents (Elt F) → (⟨S4096, .i32⟩ : BufTy).Contents (Elt F)),
    binary main_v9 main_v35 main_v36 (addi : (⟨S4096, .i32⟩ : BufTy).Contents (Elt F) → (⟨S4096, .i32⟩ : BufTy).Contents (Elt F) → (⟨S4096, .i32⟩ : BufTy).Contents (Elt F)),
    ternary main_v34 main_v36 main_v9 main_v37 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v32 main_v38 (broadcastInDim S4096x1 ![0] bcast_S4096_S4096x1_0 : (⟨S4096, .i32⟩ : BufTy).Contents (Elt F) → (⟨S4096x1, .i32⟩ : BufTy).Contents (Elt F)),
    unary main_v37 main_v39 (broadcastInDim S4096x1 ![0] bcast_S4096_S4096x1_0 : (⟨S4096, .i32⟩ : BufTy).Contents (Elt F) → (⟨S4096x1, .i32⟩ : BufTy).Contents (Elt F)),
    binary main_v38 main_v39 main_v40 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v8 main_v40 main_v41 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    binary main_v25 main_v41 main_v42 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
    nullary main_cst (constant S_ .f32 0x3F000000#32),
    unary main_cst main_v43 (broadcastInDim S8192 ![] bcast_S_S8192 : (⟨S_, .f32⟩ : BufTy).Contents (Elt F) → (⟨S8192, .f32⟩ : BufTy).Contents (Elt F)),
    binary main_v42 main_v43 main_v44 (Host.divf : (⟨S8192, .f32⟩ : BufTy).Contents (Elt F) → (⟨S8192, .f32⟩ : BufTy).Contents (Elt F) → (⟨S8192, .f32⟩ : BufTy).Contents (Elt F)),
    unary main_v44 main_v45 (Host.exp : (⟨S8192, .f32⟩ : BufTy).Contents (Elt F) → (⟨S8192, .f32⟩ : BufTy).Contents (Elt F)),
    nullary main_v46 (iotaInDim S8192x8192 32 0),
    nullary main_v47 (iotaInDim S8192x8192 32 1),
    nullary main_c_9 (constantI S_ 32 0#32),
    unary main_c_9 main_v48 (broadcastInDim S8192x8192 ![] bcast_S_S8192x8192 : (⟨S_, .i32⟩ : BufTy).Contents (Elt F) → (⟨S8192x8192, .i32⟩ : BufTy).Contents (Elt F)),
    binary main_v46 main_v48 main_v49 (addi : (⟨S8192x8192, .i32⟩ : BufTy).Contents (Elt F) → (⟨S8192x8192, .i32⟩ : BufTy).Contents (Elt F) → (⟨S8192x8192, .i32⟩ : BufTy).Contents (Elt F)),
    binary main_v49 main_v47 main_v50 (cmpi .eq : (⟨S8192x8192, .i32⟩ : BufTy).Contents (Elt F) → (⟨S8192x8192, .i32⟩ : BufTy).Contents (Elt F) → (⟨S8192x8192, .i1⟩ : BufTy).Contents (Elt F)),
    unary main_v50 main_v51 (uitofp .f32 : (⟨S8192x8192, .i1⟩ : BufTy).Contents (Elt F) → (⟨S8192x8192, .f32⟩ : BufTy).Contents (Elt F)),
    nullary main_cst_10 (constant S_ .f32 0x3F800000#32),
    unary main_cst_10 main_v52 (broadcastInDim S8192x8192 ![] bcast_S_S8192x8192 : (⟨S_, .f32⟩ : BufTy).Contents (Elt F) → (⟨S8192x8192, .f32⟩ : BufTy).Contents (Elt F)),
    binary main_v52 main_v51 main_v53 (subf : (⟨S8192x8192, .f32⟩ : BufTy).Contents (Elt F) → (⟨S8192x8192, .f32⟩ : BufTy).Contents (Elt F) → (⟨S8192x8192, .f32⟩ : BufTy).Contents (Elt F)),
    nullary main_cst_11 (constant S_ .f32 0x3F000000#32),
    unary main_cst_11 main_v54 (broadcastInDim S8192x8192 ![] bcast_S_S8192x8192 : (⟨S_, .f32⟩ : BufTy).Contents (Elt F) → (⟨S8192x8192, .f32⟩ : BufTy).Contents (Elt F)),
    binary main_v8 main_v54 main_v55 (Host.divf : (⟨S8192x8192, .f32⟩ : BufTy).Contents (Elt F) → (⟨S8192x8192, .f32⟩ : BufTy).Contents (Elt F) → (⟨S8192x8192, .f32⟩ : BufTy).Contents (Elt F)),
    unary main_v55 main_v56 (Host.exp : (⟨S8192x8192, .f32⟩ : BufTy).Contents (Elt F) → (⟨S8192x8192, .f32⟩ : BufTy).Contents (Elt F)),
    binary main_v53 main_v56 main_v57 (mulf : (⟨S8192x8192, .f32⟩ : BufTy).Contents (Elt F) → (⟨S8192x8192, .f32⟩ : BufTy).Contents (Elt F) → (⟨S8192x8192, .f32⟩ : BufTy).Contents (Elt F)),
    nullary main_cst_12 (constant S_ .f32 0x00000000#32),
    binary main_v57 main_cst_12 main_v58 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v45 main_v58 main_v59 (Host.divf : (⟨S8192, .f32⟩ : BufTy).Contents (Elt F) → (⟨S8192, .f32⟩ : BufTy).Contents (Elt F) → (⟨S8192, .f32⟩ : BufTy).Contents (Elt F)),
    unary main_v59 main_v60 (Host.log : (⟨S8192, .f32⟩ : BufTy).Contents (Elt F) → (⟨S8192, .f32⟩ : BufTy).Contents (Elt F)),
    unary main_v60 main_v61 (Host.negf : (⟨S8192, .f32⟩ : BufTy).Contents (Elt F) → (⟨S8192, .f32⟩ : BufTy).Contents (Elt F)),
    nullary main_cst_13 (constant S_ .f32 0x00000000#32),
    binary main_v61 main_cst_13 main_v62 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_14 (constant S_ .f32 0x46000000#32),
    binary main_v62 main_cst_14 main_v63 (Host.divf : (⟨S_, .f32⟩ : BufTy).Contents (Elt F) → (⟨S_, .f32⟩ : BufTy).Contents (Elt F) → (⟨S_, .f32⟩ : BufTy).Contents (Elt F)) ]

/-- The list is its four stretches in order. -/
theorem ops_eq : (ops : List (HloOp τ sig (Elt F))) = seg1 ++ (seg2 ++ (seg3 ++ seg4)) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., binary_bufs_sub .., nullary_bufs_sub .., binary_bufs_sub .., unary_bufs_sub .., unary_bufs_sub .., unary_bufs_sub .., binary_bufs_sub .., binary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., nullary_bufs_sub .., unary_bufs_sub .., binary_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., binary_bufs_sub .., binary_bufs_sub .., unary_bufs_sub .., unary_bufs_sub .., nullary_bufs_sub .., binary_bufs_sub .., nullary_bufs_sub .., binary_bufs_sub ..⟩

/-- The result buffer after all 89 operations, from any contents `V`: the reference's value of the two arguments. -/
theorem main_v63_eq (V : Valuation τ sig (Elt F)) :
    after ops V (Proc.devRef .tc main_v63) = Read.val_main_v63 (V (Proc.devRef .tc main_arg0)) (V (Proc.devRef .tc main_arg1)) := by
  rw [ops_eq, after_append, after_append, after_append]
  have h8_1 := seg1_v8 V
  generalize after seg1 V = W1 at h8_1 ⊢
  have h8_2 := (seg2_v8 W1).trans h8_1
  have h9_2 := seg2_v9 W1
  have h25_2 := seg2_v25 W1 _ _ h8_1
  generalize after seg2 W1 = W2 at h8_2 h9_2 h25_2 ⊢
  have h8_3 := (seg3_v8 W2).trans h8_2
  have h25_3 := (seg3_v25 W2).trans h25_2
  have h41_3 := seg3_v41 W2 _ _ h8_2 h9_2
  generalize after seg3 W2 = W3 at h8_3 h25_3 h41_3 ⊢
  exact seg4_v63 W3 _ _ h8_3 h25_3 h41_3

/-- No operation writes the first argument. -/
theorem main_arg0_eq (V : Valuation τ sig (Elt F)) : after ops V (Proc.devRef .tc main_arg0) = V (Proc.devRef .tc main_arg0) := by
  rw [ops_eq, after_append, after_append, after_append, seg4_arg0, seg3_arg0, seg2_arg0, seg1_arg0]

/-- No operation writes the second argument. -/
theorem main_arg1_eq (V : Valuation τ sig (Elt F)) : after ops V (Proc.devRef .tc main_arg1) = V (Proc.devRef .tc main_arg1) := by
  rw [ops_eq, after_append, after_append, after_append, seg4_arg1, seg3_arg1, seg2_arg1, seg1_arg1]

/-- On every device, for any float values, from any memory with zero counters: every weakly fair execution of
    @main terminates with the result buffer at the reference's value of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = Cert.ReferenceIdeal.Read.val_main_v63 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v63).trans (main_v63_eq _), (h c main_arg0).trans (main_arg0_eq _), (h c main_arg1).trans (main_arg1_eq _)⟩)
    (run_seq scopedRefs_eq scopedSems_eq defs main (fun _ => ops) main_eq (fun _ => ops_sub) m ρ)

end Cert.ReferenceIdeal.RefRun

end
-- ==== Proof.Spec.lean ====
/-
  The arithmetic the two programs share: one row's denominator of the contrastive loss.

  For an array `A` of 8192 rows of 128 numbers and an array `B` of 128 rows of 8192 numbers, the similarity of row `r`
  and column `c` is `∑ₖ A r k · B k c`. Row `r`'s denominator adds `exp (2 · similarity)` over every column except
  the row's own, which adds nothing. One program adds the 8192 columns at once; the other adds them in sixteen
  consecutive runs of 512 columns, one run after the other: over the extended reals addition is commutative and
  associative, so the two are one number (`den_eq_runs`). Nothing here asks the entries to be finite.
-/
import Idealize.ShloMosaic.PureOps.Ideal
import Idealize.ShloMosaic.PureOps.Ideal.Laws

noncomputable section

namespace Cert.Contrast

open Idealize.ShloMosaic

/-- One column's share of a row's denominator: nothing when the column is the row's own, else `exp (2 s)` of the
    similarity `s`. -/
def term (own : Prop) [Decidable own] (s : EReal) : EReal :=
  if own then 0 else Ideal.exp (s * ((2 : ℝ) : EReal))

/-- The similarity of row `r` of `A` and column `c` of `B`. -/
def sim (A : Fin 8192 → Fin 128 → EReal) (B : Fin 128 → Fin 8192 → EReal) (r c : Fin 8192) : EReal :=
  ∑ k : Fin 128, A r k * B k c

/-- Row `r`'s denominator: every column's share. -/
def den (A : Fin 8192 → Fin 128 → EReal) (B : Fin 128 → Fin 8192 → EReal) (r : Fin 8192) : EReal :=
  ∑ c : Fin 8192, term (r = c) (sim A B r c)

/-- The share of the `j`-th run of 512 consecutive columns (nothing past the sixteenth run). -/
def run (A : Fin 8192 → Fin 128 → EReal) (B : Fin 128 → Fin 8192 → EReal) (r : Fin 8192) (j : ℕ) : EReal :=
  if h : j < 16 then
    ∑ q : Fin 512, term (r.val = j * 512 + q.val) (sim A B r ⟨j * 512 + q.val, by have := q.isLt; omega⟩)
  else 0

/-- A sum over 8192 columns is the sum over sixteen runs of 512 consecutive columns. -/
theorem sum_runs (f : Fin 8192 → EReal) :
    ∑ c : Fin 8192, f c
      = ∑ j : Fin 16, ∑ q : Fin 512, f ⟨j.val * 512 + q.val, by have := j.isLt; have := q.isLt; omega⟩ := by
  calc ∑ c : Fin 8192, f c
      = ∑ x : Fin 16 × Fin 512, f (finProdFinEquiv x) := (Equiv.sum_comp (finProdFinEquiv (m := 16) (n := 512)) f).symm
    _ = ∑ j : Fin 16, ∑ q : Fin 512, f (finProdFinEquiv (j, q)) := Fintype.sum_prod_type _
    _ = _ := Finset.sum_congr rfl fun j _ => Finset.sum_congr rfl fun q _ =>
        congrArg f (Fin.ext (by
          show q.val + 512 * j.val = j.val * 512 + q.val
          omega))

/-- The sixteen runs, added one after the other, are the row's denominator. -/
theorem den_eq_runs (A : Fin 8192 → Fin 128 → EReal) (B : Fin 128 → Fin 8192 → EReal) (r : Fin 8192) :
    ∑ j ∈ Finset.range 16, run A B r j = den A B r := by
  rw [Finset.sum_range (fun j => run A B r j)]
  unfold den
  rw [sum_runs]
  refine Finset.sum_congr rfl fun j _ => ?_
  unfold run
  rw [dif_pos j.isLt]
  refine Finset.sum_congr rfl fun q _ => ?_
  have hc : (r = (⟨j.val * 512 + q.val, by have := j.isLt; have := q.isLt; omega⟩ : Fin 8192)) ↔ (r.val = j.val * 512 + q.val) :=
    ⟨fun h => congrArg Fin.val h, fun h => Fin.ext h⟩
  unfold term
  by_cases h : r.val = j.val * 512 + q.val
  · rw [if_pos h, if_pos (hc.mpr h)]
  · rw [if_neg h, if_neg (fun h' => h (hc.mp h'))]

end Cert.Contrast

end
-- ==== Proof.Point.lean ====
/-
  The kernel body's arithmetic read at one index, at the ideal values (a float is an extended real).

  The body adds to a [512,1] column a, at each row p, the row sum over the 512 columns q of
  exp (where (row = col, NEG, (x0 · x1)(p, q) · 2)), where row = 512·i₀ + p and col = 512·i₁ + q are the global row
  and column numbers of the grid point (i₀, i₁), NEG is the named constant that denotes the bottom element ⊥ (so its
  exponential is 0), and x0 · x1 is the [512,128] × [128,512] product, the sum over the 128 contraction coordinates.
  The lemmas below read each operation that is not pointwise at an index — the cast of a [512] vector to a column,
  the sum over the lanes, the matrix product, the comparison of the two 32-bit index words (nothing wraps: both are
  below 2^13) — and the two constants; `pay2_apply` chains them. `pay1_apply`: the zero block reads 0 everywhere.
-/
import proofs.«160661_j53128745451704_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Point

open Cert.KernelIdeal Cert.KernelIdeal.Gen Idealize.ShloMosaic Idealize.ShloMosaic.ValueIdx
open scoped BigOperators

/-- A [512] vector cast to a [512,1] column reads, at (p, 0), the vector at p. -/
theorem cast_col {α : Type} (v : S512.Idx → α) (p : Fin 512) :
    shapeCast S512x1 v shapeCasts_S512_S512x1 (ix2 p (0 : Fin 1)) = v (ix1 p) :=
  shapeCast_apply v _ _ _ (by
    rw [Shape.rowMajor_val_one, Shape.rowMajor_val_two]
    show p.val = p.val * 1 + 0
    omega)

/-- The sum over the 512 lanes of a [512,512] block, read at row p: the sum over the columns q of the block at
    (p, q). -/
theorem rowsum (src : FVec Ideal S512x512 .f32) (hφ : FKind.Formats .f32)
    (hacc : (0x00000000#32 : BitVec 32) = 0x00000000#32) (p : Fin 512) :
    multiReduction .add [1] S512 src 0x00000000#32 reduces_S512x512_S512 hφ hacc (ix1 p)
      = ∑ q : Fin 512, src (ix2 p q) := by
  refine (Ideal.multiReduction_add_single src 0x00000000#32 reduces_S512x512_S512 hφ hacc (ix1 p)).trans ?_
  refine Finset.sum_congr rfl fun q _ => congrArg src (funext fun c => Fin.ext ?_)
  match c with
  | ⟨0, _⟩ => rfl
  | ⟨1, _⟩ => rfl

/-- The left operand's row coordinate at output index j is j's row. -/
theorem lhs_row (j : S512x512.Idx) (c : dot_S512x128_S128x512_S512x512_1_0_0_1_n_n.contr.Idx) :
    (dot_S512x128_S128x512_S512x512_1_0_0_1_n_n.lhsIdx j c 0).val = (j 0).val := by
  unfold DotDims.lhsIdx
  rw [dif_neg (show ¬(0 : Fin S512x128.rank) ∈ dot_S512x128_S128x512_S512x512_1_0_0_1_n_n.lhsBatch by decide),
    dif_pos (show (0 : Fin S512x128.rank) ∈ dot_S512x128_S128x512_S512x512_1_0_0_1_n_n.lhsNonContracting by decide)]
  rfl

/-- The left operand's column coordinate is the contraction coordinate. -/
theorem lhs_col (j : S512x512.Idx) (c : dot_S512x128_S128x512_S512x512_1_0_0_1_n_n.contr.Idx) :
    (dot_S512x128_S128x512_S512x512_1_0_0_1_n_n.lhsIdx j c 1).val = (c ⟨0, by decide⟩).val :=
  dot_S512x128_S128x512_S512x512_1_0_0_1_n_n.lhsIdx_val_of_single rfl j c

/-- The right operand's row coordinate is the contraction coordinate. -/
theorem rhs_row (j : S512x512.Idx) (c : dot_S512x128_S128x512_S512x512_1_0_0_1_n_n.contr.Idx) :
    (dot_S512x128_S128x512_S512x512_1_0_0_1_n_n.rhsIdx j c 0).val = (c ⟨0, by decide⟩).val :=
  dot_S512x128_S128x512_S512x512_1_0_0_1_n_n.rhsIdx_val_of_single rfl j c

/-- The right operand's column coordinate at output index j is j's column. -/
theorem rhs_col (j : S512x512.Idx) (c : dot_S512x128_S128x512_S512x512_1_0_0_1_n_n.contr.Idx) :
    (dot_S512x128_S128x512_S512x512_1_0_0_1_n_n.rhsIdx j c 1).val = (j 1).val := by
  unfold DotDims.rhsIdx
  rw [dif_neg (show ¬(1 : Fin S128x512.rank) ∈ dot_S512x128_S128x512_S512x512_1_0_0_1_n_n.rhsBatch by decide),
    dif_pos (show (1 : Fin S128x512.rank) ∈ dot_S512x128_S128x512_S512x512_1_0_0_1_n_n.rhsNonContracting by decide)]
  rfl

/-- The [512,128] × [128,512] product into the zero block, read at (p, q): the sum over the 128 contraction
    coordinates of the operands' products. -/
theorem matmul_apply (x0 : FVec Ideal S512x128 .bf16) (x1 : FVec Ideal S128x512 .bf16) (p q : Fin 512) :
    matmul dot_S512x128_S128x512_S512x512_1_0_0_1_n_n none x0 x1 (constant S512x512 .f32 0x00000000#32) (ix2 p q)
      = ∑ k : Fin 128, x0 (ix2 p k) * x1 (ix2 k q) := by
  refine (Ideal.matmul_constant_zero_apply dot_S512x128_S128x512_S512x512_1_0_0_1_n_n none x0 x1 (ix2 p q)).trans ?_
  rw [← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 p q)
      ((contrEquiv1 dot_S512x128_S128x512_S512x512_1_0_0_1_n_n 128 rfl rfl).symm k) = ix2 p k :=
    funext fun a => Fin.ext (by
      match a with
      | ⟨0, _⟩ => exact lhs_row _ _
      | ⟨1, _⟩ => exact (lhs_col _ _).trans hk)
  have er : dot_S512x128_S128x512_S512x512_1_0_0_1_n_n.rhsIdx (ix2 p q)
      ((contrEquiv1 dot_S512x128_S128x512_S512x512_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The pattern 0x40000000 denotes the real 2. -/
theorem ofBits_two : Ideal.ofBits .f32 0x40000000#32 = ((2 : ℝ) : EReal) := by
  simp [Ideal.ofBits, Ideal.ieee, -EReal.coe_mul]; norm_num

/-- The named constant denotes the bottom element ⊥: the table κ gives the name that value. -/
theorem neg_big : Named.named (F := Ideal) Cert.KernelIdeal.κ "neg_big" (φ := .f32) 0xCE6E6B28#32 = (⊥ : EReal) :=
  IdealRules.named_const.ideal_named_scalar _ _ _ _ rfl

/-- Two 32-bit words a·512 + p and b·512 + q, with a, b below 16 and p, q below 512, compare equal exactly when the
    naturals are equal: nothing wraps. -/
theorem word_eq_iff (a b p q : Nat) (ha : a < 16) (hb : b < 16) (hp : p < 512) (hq : q < 512) :
    IntOp.cmpi .eq (IntOp.addi (Scalar.muli (BitVec.ofNat 32 a) 512#32) (BitVec.ofNat 32 p))
        (IntOp.addi (Scalar.muli (BitVec.ofNat 32 b) 512#32) (BitVec.ofNat 32 q)) = 1#1
      ↔ a * 512 + p = b * 512 + q := by
  unfold IntOp.cmpi IntOp.addi Scalar.muli IntOp.muli
  have key : (BitVec.ofNat 32 a * 512#32 + BitVec.ofNat 32 p = BitVec.ofNat 32 b * 512#32 + BitVec.ofNat 32 q)
      ↔ a * 512 + p = b * 512 + q := by
    rw [← BitVec.toNat_inj]
    simp only [BitVec.toNat_add, BitVec.toNat_mul, BitVec.toNat_ofNat]
    omega
  rw [← key]
  cases h : (BitVec.ofNat 32 a * 512#32 + BitVec.ofNat 32 p == BitVec.ofNat 32 b * 512#32 + BitVec.ofNat 32 q)
  · have := ne_of_beq_false h
    simp [this]
  · have := eq_of_beq h
    simp [this]

/-- The mask word at (p, q): row index a·512 + p against column index b·512 + q, as 32-bit words. -/
theorem mask_iff (a b : Nat) (ha : a < 16) (hb : b < 16) (p q : Fin 512) :
    cmpi .eq (addi (broadcast S512x512 (Scalar.muli (BitVec.ofNat 32 a) 512#32)) (iota .tc S512x512 32 [0] iota_S512x512_d0_w32))
        (addi (broadcast S512x512 (Scalar.muli (BitVec.ofNat 32 b) 512#32)) (iota .tc S512x512 32 [1] iota_S512x512_d1_w32))
        (ix2 p q) = 1#1
      ↔ a * 512 + p.val = b * 512 + q.val := by
  have e0 : iota .tc S512x512 32 [0] iota_S512x512_d0_w32 (ix2 p q) = BitVec.ofNat 32 p.val :=
    iota_single_apply .tc S512x512 32 0 iota_S512x512_d0_w32 (ix2 p q)
  have e1 : iota .tc S512x512 32 [1] iota_S512x512_d1_w32 (ix2 p q) = BitVec.ofNat 32 q.val :=
    iota_single_apply .tc S512x512 32 1 iota_S512x512_d1_w32 (ix2 p q)
  show IntOp.cmpi .eq (IntOp.addi (Scalar.muli (BitVec.ofNat 32 a) 512#32) (iota .tc S512x512 32 [0] iota_S512x512_d0_w32 (ix2 p q)))
      (IntOp.addi (Scalar.muli (BitVec.ofNat 32 b) 512#32) (iota .tc S512x512 32 [1] iota_S512x512_d1_w32 (ix2 p q))) = 1#1 ↔ _
  rw [e0, e1]
  exact word_eq_iff a b p.val q.val ha hb p.isLt q.isLt

/-- The exponential of a block masked to the named constant where the mask bit is set: zero there, the exponential
    of the block elsewhere. -/
theorem masked_exp_apply (c : IVec S512x512 1) (m : FVec Ideal S512x512 .f32) (j : S512x512.Idx) :
    exp (select c (broadcast S512x512 (Named.named (F := Ideal) Cert.KernelIdeal.κ "neg_big" (φ := .f32) 0xCE6E6B28#32)) m) j
      = if c j = 1#1 then (0 : EReal) else Ideal.exp (m j) := by
  show Ideal.exp (if c j = 1#1 then Named.named (F := Ideal) Cert.KernelIdeal.κ "neg_big" (φ := .f32) 0xCE6E6B28#32 else m j) = _
  by_cases h : c j = 1#1
  · rw [if_pos h, if_pos h, neg_big, Ideal.exp_bot]
  · rw [if_neg h, if_neg h]

/-- The product block scaled by the constant 2.0, read at (p, q). -/
theorem scaled_apply (x0 : FVec Ideal S512x128 .bf16) (x1 : FVec Ideal S128x512 .bf16) (p q : Fin 512) :
    mulf (matmul dot_S512x128_S128x512_S512x512_1_0_0_1_n_n none
          (shapeCast S512x128 x0 shapeCasts_S512x128_S512x128) (shapeCast S128x512 x1 shapeCasts_S128x512_S128x512)
          (constant S512x512 .f32 0x00000000#32))
        (broadcast S512x512 (Scalar.ofBits .f32 0x40000000#32)) (ix2 p q)
      = (∑ k : Fin 128, x0 (ix2 p k) * x1 (ix2 k q)) * ((2 : ℝ) : EReal) := by
  rw [shapeCast_self, shapeCast_self]
  refine (mulf_apply _ _ _).trans ?_
  rw [matmul_apply]
  show _ * Ideal.ofBits .f32 0x40000000#32 = _
  rw [ofBits_two]

theorem pay1_apply (y : S512x1.Idx) : k0_pay1 (F := Ideal) y = 0 := by
  unfold k0_pay1
  refine (congrFun (shapeCast_self _ _) y).trans ?_
  show Ideal.ofBits .f32 0x00000000#32 = 0
  exact Ideal.ofBits_zero_f32

theorem pay2_apply (i : grid0.Coords) (x0 : FVec Ideal S512x128 .bf16) (x1 : FVec Ideal S128x512 .bf16)
    (a : FVec Ideal S512x1 .f32) (p : Fin 512) :
    k0_pay2 (F := Ideal) i x0 x1 a (ix2 p (0 : Fin 1))
      = a (ix2 p (0 : Fin 1))
        + ∑ q : Fin 512,
            (if (i 0).val * 512 + p.val = (i 1).val * 512 + q.val then (0 : EReal)
             else Ideal.exp ((∑ k : Fin 128, x0 (ix2 p k) * x1 (ix2 k q)) * ((2 : ℝ) : EReal))) := by
  unfold k0_pay2
  refine (congrFun (shapeCast_self _ _) _).trans ?_
  refine (addf_apply _ _ _).trans ?_
  refine congrArg (a (ix2 p (0 : Fin 1)) + ·) ?_
  refine (cast_col _ p).trans ?_
  refine (rowsum _ _ _ p).trans ?_
  refine Finset.sum_congr rfl fun q _ => ?_
  refine (masked_exp_apply _ _ _).trans ?_
  exact if_congr (mask_iff (i 0).val (i 1).val (i 0).isLt (i 1).isLt p q) rfl
    (congrArg Ideal.exp (scaled_apply x0 x1 p q))

end Cert.KernelIdeal.Point

end
-- ==== Proof.Region.lean ====
/-
  What the pallas_call leaves in its result array, at any float instance.

  The grid has 256 points, point t = 16·i + j standing for row block i (512 rows) and column block j (512 columns).
  A scratch column of 512 entries is carried from point to point: at j = 0 it is reset to the zero column, at every
  point the body's payload `k0_pay2` (a function of the point's coordinates, of the point's two input blocks and of
  the column found) is stored into it, and at j = 15 the column is copied into row block i of the result array
  f32[8192,1]. The payload is never opened here: it stays a name.

    scr            — the scratch column after point n, by recursion on n: the payload over the zero column at the
                     first point of each row of the grid, over the column of the point before elsewhere;
    sout_A/B/C, out_C — the three cases' stores of the generated frame run, read back: each leaves the payload
                     (case A over the zero column it has just stored and re-loaded; case C's store into the result's
                     block is of the column re-loaded after the accumulating store, hence the same payload);
    outsAt_snd, outsAt_fst — so the generated point-by-point contents are `scr`, by induction on the point;
    array_at       — row r of the result array is row r % 512 of the scratch column after point 16·(r / 512) + 15,
                     the last point of r's row of the grid: the points with j = 15 are the ones that write back, their
                     blocks tile the array, and what each writes is its block of one function of the array index.
-/
import proofs.«160661_j53128745451704_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F] [Named F]
variable (m : (ℓ : Loc nD τ sig) → Buf (Elt F) ℓ)

theorem hz : (![0, 0] : Fin 2 → Nat) = fun _ => 0 := funext fun a => by fin_cases a <;> rfl

/-! ## The scratch column, point by point -/

/-- The scratch column after point n: the body's payload of the point's input blocks and of what the point before left
    (the zero block at the first point of each row of the grid). -/
def scr (c : Dev nD) : (n : ℕ) → n < cfg0.N → Vec F S512x1 .f32
  | 0, h => k0_pay2 (grid0.coords ⟨0, h⟩) (iblk m c 0 ⟨0, h⟩) (iblk m c 1 ⟨0, h⟩) (k0_pay1 (F := F))
  | n + 1, h =>
    if (n + 1) % 16 = 0 then
      k0_pay2 (grid0.coords ⟨n + 1, h⟩) (iblk m c 0 ⟨n + 1, h⟩) (iblk m c 1 ⟨n + 1, h⟩) (k0_pay1 (F := F))
    else
      k0_pay2 (grid0.coords ⟨n + 1, h⟩) (iblk m c 0 ⟨n + 1, h⟩) (iblk m c 1 ⟨n + 1, h⟩) (scr c n (Nat.lt_of_succ_lt h))

/-- At the first point of a row of the grid the column is the payload over the zero column. -/
theorem scr_start (c : Dev nD) (n : ℕ) (h : n < cfg0.N) (h0 : n % 16 = 0) :
    scr m c n h = k0_pay2 (grid0.coords ⟨n, h⟩) (iblk m c 0 ⟨n, h⟩) (iblk m c 1 ⟨n, h⟩) (k0_pay1 (F := F)) := by
  cases n with
  | zero => rfl
  | succ n => exact if_pos h0

/-- At every other point it is the payload over the column the point before left. -/
theorem scr_step (c : Dev nD) (n : ℕ) (h : n + 1 < cfg0.N) (h0 : ¬(n + 1) % 16 = 0) :
    scr m c (n + 1) h = k0_pay2 (grid0.coords ⟨n + 1, h⟩) (iblk m c 0 ⟨n + 1, h⟩) (iblk m c 1 ⟨n + 1, h⟩) (scr m c n (Nat.lt_of_succ_lt h)) :=
  if_neg h0

/-- The column depends on the point only (not on how the point's bound is proved). -/
theorem scr_congr (c : Dev nD) (n n' : ℕ) (h : n < cfg0.N) (h' : n' < cfg0.N) (e : n = n') : scr m c n h = scr m c n' h' := by
  subst e; rfl

/-! ## The three cases' stores, read back -/

/-- Case A (j = 0): the zero column is stored into the scratch, loaded back, and the payload over it stored: the scratch
    ends at the payload over the zero column. -/
theorem sout_A (c : Dev nD) (i : grid0.Coords) (arg2 : Memref sig .tc .vmem S512x128 .bf16) (harg2 : arg2.IsWhole) (arg3 : Memref sig .tc .vmem S128x512 .bf16) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x128 .bf16) (x1 : Vec F S128x512 .bf16) :
    sout0_A_0 c i arg2 harg2 arg3 harg3 arg4 harg4 arg5 harg5 hc0 hc1 x0 x1 = k0_pay2 i x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x1) hz, View.readCov_unit_zero (S := S512x1) _ hz]
  simp only [View.readAt_eq_ld, harg2.read_unread, harg3.read_unread, View.ld_unit_zero (S := S512x128) hz, View.ld_unit_zero (S := S128x512) hz]

/-- Case B (0 < j < 15): one store, of the payload over the column found. -/
theorem sout_B (c : Dev nD) (i : grid0.Coords) (arg2 : Memref sig .tc .vmem S512x128 .bf16) (harg2 : arg2.IsWhole) (arg3 : Memref sig .tc .vmem S128x512 .bf16) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x128 .bf16) (x1 : Vec F S128x512 .bf16) (xs0 : Vec F S512x1 .f32) :
    sout0_B_0 c i arg2 harg2 arg3 harg3 arg4 harg4 arg5 harg5 hc0 hc1 x0 x1 xs0 = k0_pay2 i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero (S := S512x1) hz]
  simp only [View.readAt_eq_ld, harg2.read_unread, harg3.read_unread, harg5.read_unread, View.ld_unit_zero (S := S512x128) hz, View.ld_unit_zero (S := S128x512) hz, View.ld_unit_zero (S := S512x1) hz]

/-- Case C (j = 15), the scratch: the same one store. -/
theorem sout_C (c : Dev nD) (i : grid0.Coords) (arg2 : Memref sig .tc .vmem S512x128 .bf16) (harg2 : arg2.IsWhole) (arg3 : Memref sig .tc .vmem S128x512 .bf16) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x128 .bf16) (x1 : Vec F S128x512 .bf16) (xs0 : Vec F S512x1 .f32) :
    sout0_C_0 c i arg2 harg2 arg3 harg3 arg4 harg4 arg5 harg5 hc0 hc1 x0 x1 xs0 = k0_pay2 i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S512x1) hz]
  simp only [View.readAt_eq_ld, harg2.read_unread, harg3.read_unread, harg5.read_unread, View.ld_unit_zero (S := S512x128) hz, View.ld_unit_zero (S := S128x512) hz, View.ld_unit_zero (S := S512x1) hz]

/-- Case C (j = 15), the result's block: the store into it is of the scratch column loaded back after the accumulating
    store, so it holds the same payload. -/
theorem out_C (c : Dev nD) (i : grid0.Coords) (arg2 : Memref sig .tc .vmem S512x128 .bf16) (harg2 : arg2.IsWhole) (arg3 : Memref sig .tc .vmem S128x512 .bf16) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x128 .bf16) (x1 : Vec F S128x512 .bf16) (xs0 : Vec F S512x1 .f32) :
    out0_C_2 c i arg2 harg2 arg3 harg3 arg4 harg4 arg5 harg5 hc0 hc1 x0 x1 xs0 = k0_pay2 i x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S512x1) hz, View.readCov_unit_zero (S := S512x1) _ hz]
  simp only [View.readAt_eq_ld, harg2.read_unread, harg3.read_unread, harg5.read_unread, View.ld_unit_zero (S := S512x128) hz, View.ld_unit_zero (S := S128x512) hz, View.ld_unit_zero (S := S512x1) hz]

/-! ## The generated point-by-point contents are the scratch column -/

/-- After every point the carried scratch holds `scr`: by induction on the point, the case read off the point's
    residue modulo 16. -/
theorem outsAt_snd (c : Dev nD) : ∀ (n : ℕ) (h : n < cfg0.N), (outsAt0 m c n h).2 = scr m c n h
  | 0, h => by
    rw [outsAt0_A m c ⟨0, h⟩ (Nat.zero_mod _) (by show ¬(0 % 16 = 15); decide), scr_start m c 0 h (Nat.zero_mod _)]
    dsimp only
    rw [sout_A]
  | n + 1, h => by
    by_cases h0 : (n + 1) % 16 = 0
    · have h1 : ¬(n + 1) % 16 = 15 := by omega
      rw [outsAt0_A m c ⟨n + 1, h⟩ h0 h1, scr_start m c (n + 1) h h0]
      dsimp only
      rw [sout_A]
    · by_cases h1 : (n + 1) % 16 = 15
      · rw [outsAt0_C m c ⟨n + 1, h⟩ h0 h1, scr_step m c n h h0]
        dsimp only
        rw [sout_C]
        show k0_pay2 _ _ _ (outsAt0 m c n _).2 = k0_pay2 _ _ _ (scr m c n _)
        rw [outsAt_snd c n]
      · rw [outsAt0_B m c ⟨n + 1, h⟩ h0 h1, scr_step m c n h h0]
        dsimp only
        rw [sout_B]
        show k0_pay2 _ _ _ (outsAt0 m c n _).2 = k0_pay2 _ _ _ (scr m c n _)
        rw [outsAt_snd c n]

/-- At the last point of a row of the grid the result's staging block holds the same column. -/
theorem outsAt_fst (c : Dev nD) (n : ℕ) (h : n < cfg0.N) (h15 : n % 16 = 15) : (outsAt0 m c n h).1 = scr m c n h := by
  cases n with
  | zero => exact absurd h15 (by decide)
  | succ n =>
    have h0 : ¬(n + 1) % 16 = 0 := by omega
    rw [outsAt0_C m c ⟨n + 1, h⟩ h0 h15, scr_step m c n h h0]
    dsimp only
    rw [out_C]
    show k0_pay2 _ _ _ (outsAt0 m c n _).2 = k0_pay2 _ _ _ (scr m c n _)
    rw [outsAt_snd m c n]

/-! ## From the blocks to the array -/

/-- The result array as one function of its index: row y₀ holds row y₀ % 512 of the scratch column after the last
    point, 16·(y₀ / 512) + 15, of y₀'s row of the grid. -/
def G (c : Dev nD) : S8192x1.Idx → Elt F .f32 := fun y =>
  scr m c (16 * ((y 0).val / 512) + 15)
    (by rw [show cfg0.N = 256 from N_0]; have h0 : (y 0).val < 8192 := (y 0).isLt; omega)
    (ix2 (⟨(y 0).val % 512, Nat.mod_lt _ (by decide)⟩ : Fin 512) (0 : Fin 1))

/-- `G` at an index whose row is row k of row block n / 16 (n the block's last point). -/
theorem G_apply (c : Dev nD) (i : S8192x1.Idx) (n : ℕ) (hn : n < cfg0.N) (k : Fin 512)
    (e1 : 16 * ((i 0).val / 512) + 15 = n) (e2 : (i 0).val % 512 = k.val) :
    G m c i = scr m c n hn (ix2 k (0 : Fin 1)) := by
  subst e1
  obtain rfl : k = ⟨(i 0).val % 512, Nat.mod_lt _ (by decide)⟩ := Fin.ext e2.symm
  rfl

/-- The result window's block index at point t, decided over the grid: t / 16 along the rows, 0 along the one column. -/
theorem idx_facts : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- What a point that writes back (j = 15) writes is its block of `G`. -/
theorem flushed_eq (c : Dev nD) (t : Fin cfg0.N) (hf : (cfg0.win 2).flush t = true) :
    (dats m 0 c).flushed 2 t = ((cfg0.win 2).blk t).view.read (Elt F) (G m c) := by
  have h15 : t.val % 16 = 15 := (flush0_2 t).mp hf
  have hi := (idx_facts t).1
  show (cfg0.win 2).cut (grid0.coords t) ((dats m 0 c).after 2 t) = _
  rw [after0_2, outsAt_fst m c t.val t.isLt h15]
  funext y
  have hy0 : (y 0).val < 512 := (y 0).isLt
  have hy1 : (y 1).val < 1 := (y 1).isLt
  show scr m c t.val t.isLt ((cfg0.win 2).xinj (grid0.coords t) y) = G m c (((cfg0.win 2).blk t).view.emb y)
  refine Eq.trans ?_ (G_apply m c _ t.val t.isLt ⟨(y 0).val, hy0⟩ ?_ ?_).symm
  · refine congrArg (scr m c t.val t.isLt) (funext fun a => Fin.ext ?_)
    match a with
    | ⟨0, _⟩ => rfl
    | ⟨1, _⟩ => show (y 1).val = 0; omega
  · show 16 * ((win0_2.index t (0 : Fin 2) * 512 + 1 * (y 0).val) / 512) + 15 = t.val
    rw [hi]; omega
  · show (win0_2.index t (0 : Fin 2) * 512 + 1 * (y 0).val) % 512 = (y 0).val
    rw [hi]; omega

/-- An index of the array is in point t's block iff each coordinate is in the block's range on its axis. -/
theorem mem_blk (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v9).slice (win0_2.rect t)).set ↔ _
  rw [View.set_slice_whole, Rect.mem_set_unit]
  exact Iff.rfl

/-- The blocks written back tile the array: row r lies in the block of point 16·(r / 512) + 15. -/
theorem cover (i : S8192x1.Idx) :
    ∃ t : Fin cfg0.N, (cfg0.win 2).flush t = true ∧ i ∈ ((cfg0.win 2).blk t).view.set := by
  have h0 : (i 0).val < 8192 := (i 0).isLt
  have h1 : (i 1).val < 1 := (i 1).isLt
  have hN : cfg0.N = 256 := N_0
  have ht : 16 * ((i 0).val / 512) + 15 < cfg0.N := by rw [hN]; omega
  refine ⟨⟨16 * ((i 0).val / 512) + 15, ht⟩, (flush0_2 _).mpr (by show (16 * ((i 0).val / 512) + 15) % 16 = 15; omega), ?_⟩
  obtain ⟨e0, e1⟩ := idx_facts ⟨16 * ((i 0).val / 512) + 15, ht⟩
  have e0' : win0_2.index ⟨16 * ((i 0).val / 512) + 15, ht⟩ (0 : Fin 2) = (i 0).val / 512 := by
    rw [e0]; show (16 * ((i 0).val / 512) + 15) / 16 = (i 0).val / 512; omega
  rw [mem_blk]
  intro a
  match a with
  | ⟨0, _⟩ =>
    show win0_2.index ⟨16 * ((i 0).val / 512) + 15, ht⟩ (0 : Fin 2) * 512 ≤ (i 0).val ∧ (i 0).val < win0_2.index ⟨16 * ((i 0).val / 512) + 15, ht⟩ (0 : Fin 2) * 512 + 512
    rw [e0']; omega
  | ⟨1, _⟩ =>
    show win0_2.index ⟨16 * ((i 0).val / 512) + 15, ht⟩ (1 : Fin 2) * 1 ≤ (i 1).val ∧ (i 1).val < win0_2.index ⟨16 * ((i 0).val / 512) + 15, ht⟩ (1 : Fin 2) * 1 + 1
    rw [e1]; omega

/-- So the result array ends holding `G`. -/
theorem final_o (c : Dev nD) : (dats m 0 c).arrAt 2 cfg0.N = G m c :=
  (dats m 0 c).arrAt_eq_of_cover 2 (G m c) (flushed_eq m c) cover

/-- Row r of the result array is row r % 512 of the scratch column after the last point of r's row of the grid. -/
theorem array_at (c : Dev nD) (r : Fin 8192) :
    (dats m 0 c).arrAt 2 cfg0.N (ix2 r (0 : Fin 1))
      = scr m c (16 * (r.val / 512) + 15) (by rw [show cfg0.N = 256 from N_0]; have := r.isLt; omega)
          (ix2 (⟨r.val % 512, Nat.mod_lt _ (by decide)⟩ : Fin 512) (0 : Fin 1)) := by
  rw [final_o m c]
  exact G_apply m c (ix2 r (0 : Fin 1)) _ _ _ rfl rfl

end Cert.KernelIdeal.Region
end
-- ==== Proof.Blocks.lean ====
/-
  Where the kernel's input blocks sit in their arrays.

  The grid has 256 points; point `t` is row block `t / 16` and column block `t % 16`. The first input's block at `t` is
  rows `512 · (t / 16) … + 511` of the 8192 × 128 array, all 128 columns; the second input's block is columns
  `512 · (t % 16) … + 511` of the 128 × 8192 array, all 128 rows. So entry `(p, k)` of the first block is entry
  `(512 · (t / 16) + p, k)` of the array, and entry `(k, q)` of the second is entry `(k, 512 · (t % 16) + q)`.
-/
import proofs.«160661_j53128745451704_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F] [Named F]
variable (m : (ℓ : Loc nD τ sig) → Buf (Elt F) ℓ)

/-- A point's two grid coordinates: its row block and its column block. -/
theorem coords_val : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- The first input's block index at a point: (row block, 0). -/
theorem index0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)

/-- The second input's block index at a point: (0, column block). -/
theorem index1 : ∀ t : Fin cfg0.N, win0_1.index t (0 : Fin 2) = 0 ∧ win0_1.index t (1 : Fin 2) = t.val % 16 :=
  (by decide +kernel : ∀ t : Fin grid0.N, win0_1.index t (0 : Fin 2) = 0 ∧ win0_1.index t (1 : Fin 2) = t.val % 16)

theorem row_lt (t : Fin cfg0.N) (p : Fin 512) : t.val / 16 * 512 + p.val < 8192 := by
  have hN : t.val < 256 := lt_of_lt_of_eq t.isLt (show cfg0.N = 256 from N_0)
  have := p.isLt; omega

theorem col_lt (t : Fin cfg0.N) (q : Fin 512) : t.val % 16 * 512 + q.val < 8192 := by
  have := q.isLt; omega

/-- Entry `(p, k)` of the first input's block at point `t` is entry `(512 · (t / 16) + p, k)` of its array. -/
theorem iblk0_apply (c : Dev nD) (t : Fin cfg0.N) (p : Fin 512) (k : Fin 128) :
    (iblk m c 0 t : Vec F S512x128 .bf16) (ix2 p k)
      = (V m c main_v7 : Vec F S8192x128 .bf16) (ix2 (⟨t.val / 16 * 512 + p.val, row_lt t p⟩ : Fin 8192) k) := by
  unfold iblk
  rw [View.read_apply]
  show V m c main_v7 _ = V m c main_v7 _
  refine congrArg (V m c main_v7) (funext fun a => Fin.ext ?_)
  match a with
  | ⟨0, _⟩ =>
    show win0_0.index t 0 * 512 + 1 * p.val = t.val / 16 * 512 + p.val
    rw [(index0 t).1]; omega
  | ⟨1, _⟩ =>
    show win0_0.index t 1 * 128 + 1 * k.val = k.val
    rw [(index0 t).2]; omega

/-- Entry `(k, q)` of the second input's block at point `t` is entry `(k, 512 · (t % 16) + q)` of its array. -/
theorem iblk1_apply (c : Dev nD) (t : Fin cfg0.N) (k : Fin 128) (q : Fin 512) :
    (iblk m c 1 t : Vec F S128x512 .bf16) (ix2 k q)
      = (V m c main_v8 : Vec F S128x8192 .bf16) (ix2 k (⟨t.val % 16 * 512 + q.val, col_lt t q⟩ : Fin 8192)) := by
  unfold iblk
  rw [View.read_apply]
  show V m c main_v8 _ = V m c main_v8 _
  refine congrArg (V m c main_v8) (funext fun a => Fin.ext ?_)
  match a with
  | ⟨0, _⟩ =>
    show win0_1.index t 0 * 128 + 1 * k.val = k.val
    rw [(index1 t).1]; omega
  | ⟨1, _⟩ =>
    show win0_1.index t 1 * 512 + 1 * q.val = t.val % 16 * 512 + q.val
    rw [(index1 t).2]; omega

end Cert.KernelIdeal.Blocks

end
-- ==== Proof.Accum.lean ====
/-
  The region's result array, row by row, at the ideal instance.

  At a grid point (row block `i`, column block `j`) the body adds to row `p` of the scratch column the `j`-th run of row
  `512 i + p`'s denominator: the sum over the run's 512 columns `c` of `exp (2 · ∑ₖ A (512 i + p) k · B k c)`, the row's own
  column adding nothing (there the body exponentiates the named bottom, and `exp ⊥ = 0`). The scratch starts each row of
  the grid from the zero block, so after column block `j` it holds the first `j + 1` runs added in order, and after the last
  one — when it is written to the result array — the sixteen runs, which are the whole denominator (re-associated).
  `A` and `B` are the two input arrays as the region finds them.
-/
import proofs.«160661_j53128745451704_2_alg».proof.Proof.Spec
import proofs.«160661_j53128745451704_2_alg».proof.Proof.Point
import proofs.«160661_j53128745451704_2_alg».proof.Proof.Region
import proofs.«160661_j53128745451704_2_alg».proof.Proof.Blocks

noncomputable section

namespace Cert.KernelIdeal.Accum

open Cert.KernelIdeal Cert.KernelIdeal.Gen Idealize.ShloMosaic Idealize.ShloMosaic.TcCoe Idealize.SL.Sem
open Idealize.ShloMosaic.ValueIdx Cert.Contrast
open Cert.KernelIdeal.Region Cert.KernelIdeal.Blocks Cert.KernelIdeal.Point

variable (m : (ℓ : Loc nD τ sig) → Buf (Elt Ideal) ℓ)

/-- The first input array as the region finds it, by row and column. -/
def arrA (c : Dev nD) : Fin 8192 → Fin 128 → EReal := fun a k => (V m c main_v7 : FVec Ideal S8192x128 .bf16) (ix2 a k)
/-- The second input array as the region finds it, by row and column. -/
def arrB (c : Dev nD) : Fin 128 → Fin 8192 → EReal := fun k b => (V m c main_v8 : FVec Ideal S128x8192 .bf16) (ix2 k b)

/-- One point's work on row `p` of the scratch column: the point's run of the row's denominator is added. -/
theorem point_run (c : Dev nD) (t : Fin cfg0.N) (a : FVec Ideal S512x1 .f32) (p : Fin 512) :
    (k0_pay2 (F := Ideal) (grid0.coords t) (iblk m c 0 t) (iblk m c 1 t) a (ix2 p (0 : Fin 1)) : EReal)
      = a (ix2 p (0 : Fin 1)) + run (arrA m c) (arrB m c) ⟨t.val / 16 * 512 + p.val, row_lt t p⟩ (t.val % 16) := by
  refine (pay2_apply (grid0.coords t) (iblk m c 0 t) (iblk m c 1 t) a p).trans ?_
  refine congrArg (a (ix2 p (0 : Fin 1)) + ·) ?_
  unfold run
  rw [dif_pos (Nat.mod_lt _ (by decide))]
  refine Finset.sum_congr rfl fun q _ => ?_
  unfold term sim arrA arrB
  rw [(coords_val t).1, (coords_val t).2]
  refine if_congr Iff.rfl rfl (congrArg Ideal.exp (congrArg (· * ((2 : ℝ) : EReal)) (Finset.sum_congr rfl fun k _ => ?_)))
  rw [iblk0_apply m c t p k, iblk1_apply m c t k q]

/-- After point `n` row `p` of the scratch column holds the first `n % 16 + 1` runs of row `512 (n / 16) + p`'s
    denominator, added in order. -/
theorem scr_apply (c : Dev nD) : ∀ (n : ℕ) (h : n < cfg0.N) (p : Fin 512),
    (scr (F := Ideal) m c n h (ix2 p (0 : Fin 1)) : EReal)
      = ∑ j ∈ Finset.range (n % 16 + 1), run (arrA m c) (arrB m c) ⟨n / 16 * 512 + p.val, row_lt ⟨n, h⟩ p⟩ j
  | 0, h, p => by
    rw [scr_start m c 0 h (by decide)]
    refine (point_run m c ⟨0, h⟩ (k0_pay1 (F := Ideal)) p).trans ?_
    rw [pay1_apply, zero_add]
    simp
  | n + 1, h, p => by
    by_cases h0 : (n + 1) % 16 = 0
    · rw [scr_start m c (n + 1) h h0]
      refine (point_run m c ⟨n + 1, h⟩ (k0_pay1 (F := Ideal)) p).trans ?_
      rw [pay1_apply, zero_add]
      show run _ _ _ ((n + 1) % 16) = _
      rw [h0]
      simp
    · rw [scr_step m c n h h0]
      refine (point_run m c ⟨n + 1, h⟩ (scr (F := Ideal) m c n (Nat.lt_of_succ_lt h)) p).trans ?_
      rw [scr_apply c n (Nat.lt_of_succ_lt h) p]
      have e1 : (n + 1) / 16 = n / 16 := by omega
      have e2 : (n + 1) % 16 = n % 16 + 1 := by omega
      have er : (⟨(n + 1) / 16 * 512 + p.val, row_lt ⟨n + 1, h⟩ p⟩ : Fin 8192) = ⟨n / 16 * 512 + p.val, row_lt ⟨n, Nat.lt_of_succ_lt h⟩ p⟩ :=
        Fin.ext (by show (n + 1) / 16 * 512 + p.val = n / 16 * 512 + p.val; rw [e1])
      show _ + run _ _ ⟨(n + 1) / 16 * 512 + p.val, _⟩ ((n + 1) % 16) = ∑ j ∈ Finset.range ((n + 1) % 16 + 1), run _ _ ⟨(n + 1) / 16 * 512 + p.val, _⟩ j
      rw [er, e2, Finset.sum_range_succ _ (n % 16 + 1)]

/-- Row `r` of the region's result array is row `r`'s denominator. -/
theorem region_den (c : Dev nD) (r : Fin 8192) :
    ((dats (F := Ideal) m 0 c).arrAt 2 cfg0.N (ix2 r (0 : Fin 1)) : EReal) = den (arrA m c) (arrB m c) r := by
  rw [array_at m c r, scr_apply]
  have e1 : (16 * (r.val / 512) + 15) % 16 + 1 = 16 := by omega
  have er : (⟨(16 * (r.val / 512) + 15) / 16 * 512 + r.val % 512, row_lt ⟨16 * (r.val / 512) + 15, by rw [show cfg0.N = 256 from N_0]; have := r.isLt; omega⟩ ⟨r.val % 512, Nat.mod_lt _ (by decide)⟩⟩ : Fin 8192) = r :=
    Fin.ext (by show (16 * (r.val / 512) + 15) / 16 * 512 + r.val % 512 = r.val; omega)
  rw [e1]
  show ∑ j ∈ Finset.range 16, run _ _ ⟨(16 * (r.val / 512) + 15) / 16 * 512 + r.val % 512, _⟩ j = _
  rw [er]
  exact den_eq_runs _ _ r

end Cert.KernelIdeal.Accum

end
-- ==== Proof.HostSide.lean ====
/-
  The host operations of the idealized kernel program around its one pipelined region, at any float instance.

  Before the region the program normalises each of its two [4096,128] arguments row by row (every row divided by the
  square root of the sum of its squares), stacks the two normalised arrays into one [8192,128] array, rounds it to
  bf16, and transposes the rounded array; the region reads the rounded array and its transpose. This module states
  what those operations leave in the four buffers that the region and the later operations read.

  After the region the program reads the region's [8192,1] output column as a vector D, forms the vector P of the
  per-row inner products of the two normalised arrays (twice over, one copy per half of the 8192 rows), and returns
  the mean over the rows of -log (exp (P / 0.5) / D). This module states those operations as ONE composed function
  of P's two operands and of the region's output column.
-/
import proofs.«160661_j53128745451704_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostSide

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx

variable {F : FTy → Type} [FloatOps F] [Named F]

/-! ## Before the region -/

/-- An array with every row divided by the square root of the sum of its squares. -/
def unitRows (x : FVec F S4096x128 .f32) : FVec F S4096x128 .f32 :=
  Host.divf x (broadcastInDim S4096x128 ![0, 1] bcast_S4096x1_S4096x128_0_1
    (Host.sqrt (broadcastInDim S4096x1 ![0] bcast_S4096_S4096x1_0
      (Host.reduceAdd (mulf x x) (constant S_ .f32 0x00000000#32) reducesTo_S4096x128_S4096_d1 h_S_))))

/-- The two normalised arrays stacked: 8192 rows. -/
def stacked (a0 a1 : FVec F S4096x128 .f32) : FVec F S8192x128 .f32 :=
  concatenate S8192x128 0 [⟨S4096x128, unitRows a0⟩, ⟨S4096x128, unitRows a1⟩] concatenates_S4096x128_S4096x128_S8192x128_d0

variable (m : (ℓ : Loc nD τ sig) → Buf (Elt F) ℓ)

/-- The first argument, every row normalised, is what the region's entry finds in the buffer of the program's value 2. -/
theorem V_v2 (c : Dev nD) : V m c main_v2 = unitRows (m ((c : Thread nD τ).loc main_arg0)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The second argument, every row normalised, is what the region's entry finds in the buffer of the program's value 5. -/
theorem V_v5 (c : Dev nD) : V m c main_v5 = unitRows (m ((c : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The region's first input array: the two normalised arguments stacked and rounded to bf16. -/
theorem V_v7 (c : Dev nD) :
    V m c main_v7 = truncf .bf16 (stacked (m ((c : Thread nD τ).loc main_arg0)) (m ((c : Thread nD τ).loc main_arg1))) bitsLt_bf16_f32 := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The region's second input array: the transpose of the first. -/
theorem V_v8 (c : Dev nD) :
    V m c main_v8 = transpose S128x8192 [1, 0] (truncf .bf16 (stacked (m ((c : Thread nD τ).loc main_arg0)) (m ((c : Thread nD τ).loc main_arg1))) bitsLt_bf16_f32) transposes_S8192x128_S128x8192_1_0 := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-! ## After the region -/

/-- The per-row products' sums, twice over: the positive pairs' similarities for the 8192 rows. -/
def positives (zi zj : FVec F S4096x128 .f32) : FVec F S8192 .f32 :=
  concatenate S8192 0 [⟨S4096, Host.reduceAdd (mulf zi zj) (constant S_ .f32 0x00000000#32) reducesTo_S4096x128_S4096_d1 h_S_⟩,
                       ⟨S4096, Host.reduceAdd (mulf zi zj) (constant S_ .f32 0x00000000#32) reducesTo_S4096x128_S4096_d1 h_S_⟩] concatenates_S4096_S4096_S8192_d0

/-- The [8192,1] column read as a vector (the program's reshape). -/
def asVector (d : FVec F S8192x1 .f32) : FVec F S8192 .f32 :=
  fun i => shapeCast S8192 d shapeCasts_S8192x1_S8192 i

/-- Entry `r` of the vector is entry `(r, 0)` of the column. -/
theorem asVector_apply (d : FVec F S8192x1 .f32) (r : Fin 8192) : asVector d (ix1 r) = d (ix2 r (0 : Fin 1)) :=
  shapeCast_apply d shapeCasts_S8192x1_S8192 _ _ (by
    rw [Shape.rowMajor_val_two, Shape.rowMajor_val_one]
    show r.val * 1 + 0 = r.val
    rw [Nat.mul_one, Nat.add_zero])

/-- The loss from the positives P and the denominators D: mean over the rows of −log (exp (P / 0.5) / D). -/
def lossOf (P D : FVec F S8192 .f32) : FVec F S_ .f32 :=
  Host.divf (Host.reduceAdd (Host.negf (Host.log (Host.divf (Host.exp (Host.divf P (broadcastInDim S8192 ![] bcast_S_S8192 (constant S_ .f32 0x3F000000#32)))) D)))
      (constant S_ .f32 0x00000000#32) reducesTo_S8192_S_d0 h_S_) (constant S_ .f32 0x46000000#32)

/-- The program's result: the loss of the positives of the two normalised arguments and of the region's output
    column read as a vector. -/
theorem tail_eq (c : Dev nD) :
    Pipeline.afterTail₀ cfgs (dats m) 0 (V0 m) [hostOps1] c main_v21
      = lossOf (positives (V m c main_v2) (V m c main_v5)) (asVector ((dats m 0 c).arrAt 2 cfg0.N)) := by
  unfold Pipeline.afterTail₀
  simp only [Gen.hostOps1, List.flatten_cons, List.flatten_nil, List.append_nil, List.cons_append, List.nil_append]
  after_results
  rw [Pipeline.withArrays_of_ne _ c (V0 m c) _ main_v2 (by exact (by decide : ∀ w, Pipeline.arrRef spec0 w ≠ main_v2)),
    Pipeline.withArrays_of_ne _ c (V0 m c) _ main_v5 (by exact (by decide : ∀ w, Pipeline.arrRef spec0 w ≠ main_v5))]
  rw [show Pipeline.withArrays (cfgs 0).spec c (V0 m c) (fun w => (dats m 0 c).arrAt w (cfgs 0).N) (Proc.devRef .tc main_v9)
        = (dats m 0 c).arrAt 2 cfg0.N from Pipeline.withArrays_arr spec0 launch0.win.arr_inj c (V0 m c) _ 2]
  rfl

end Cert.KernelIdeal.HostSide

end
-- ==== Proof.RefSide.lean ====
/-
  The REFERENCE side, read index by index at the ideal instance (extended reals).

  The reference computes, from two inputs of shape [4096,128]: their rows divided by their Euclidean norms, stacked into
  one [8192,128] array; the similarity matrix of the stacked rows with themselves ([8192,8192]); per row r the
  DENOMINATOR, the sum over all columns of (1 − [r = c]) · exp(sim(r, c) / 0.5); the positives (two gathers); and the
  mean over the rows of −log(exp(positive / 0.5) / denominator).

  This module proves:
  * `den_apply`: the denominator of row r is the sum over the columns c of 0 when c = r and otherwise of
    exp(2 · ∑ₖ stacked(r, k) · stackedᵀ(k, c)) — the mask's factor is 1 − 1 = 0 on the diagonal (and zero times any
    extended real is zero) and 1 − 0 = 1 off it; dividing by one half is multiplying by two; the 32-bit words of two
    coordinates below 8192 are equal exactly when the coordinates are;
  * the program's stages as plain composed terms (`unitRows`, `stacked`, `lossOf`), each equation by unfolding
    the generated stage definitions.
-/
import proofs.«160661_j53128745451704_2_alg».proof.Proof.RefRead
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.ValueIdx
open scoped BigOperators

/-! ## Constants and words -/

/-- The pattern 0x3F000000 denotes one half. -/
theorem ofBits_half : Ideal.ofBits .f32 0x3F000000#32 = ((0.5 : ℝ) : EReal) := by
  simp [Ideal.ofBits, Ideal.ieee, -EReal.coe_mul]; norm_num

/-- The pattern 0x3F800000 denotes one. -/
theorem ofBits_one : Ideal.ofBits .f32 0x3F800000#32 = 1 := by
  simp [Ideal.ofBits, Ideal.ieee, -EReal.coe_mul]; norm_num

/-- Two coordinates below 8192 have equal 32-bit words exactly when they are equal: 8192 is below 2^32, so neither
    word wraps. -/
theorem iota_eq_iff (r c : Fin 8192) : (BitVec.ofNat 32 r.val = BitVec.ofNat 32 c.val) ↔ r = c := by
  constructor
  · intro h
    have := congrArg BitVec.toNat h
    simp only [BitVec.toNat_ofNat] at this
    have hr := r.isLt; have hc := c.isLt
    rw [Nat.mod_eq_of_lt (by omega), Nat.mod_eq_of_lt (by omega)] at this
    exact Fin.ext this
  · intro h; rw [h]

/-- One minus the bit one, converted unsigned, is zero … -/
theorem one_sub_bit_one : (1 : EReal) - (((1#1 : BitVec 1).toNat : ℝ) : EReal) = 0 := by
  have h : (((1#1 : BitVec 1).toNat : ℝ) : EReal) = ((1 : ℝ) : EReal) := by norm_num
  rw [h, ← EReal.coe_one, ← EReal.coe_sub, sub_self, EReal.coe_zero]

/-- … and one minus the bit zero is one. -/
theorem one_sub_bit_zero : (1 : EReal) - (((0#1 : BitVec 1).toNat : ℝ) : EReal) = 1 := by
  have h : (((0#1 : BitVec 1).toNat : ℝ) : EReal) = 0 := by norm_num
  rw [h, sub_zero]

/-! ## The denominators -/

/-- The mask 1 − float(row == column) at (r, c): zero on the diagonal, one off it. -/
theorem mask_apply (r c : Fin 8192) :
    val_main_v53 (F := Ideal) (ix2 r c) = if r = c then (0 : EReal) else 1 := by
  rw [val_main_v53_apply, val_main_v52_apply, val_main_cst_10_apply, val_main_v51_apply, val_main_v50_apply,
    val_main_v49_apply, val_main_v46_apply, val_main_v48_apply, val_main_c_9_apply, val_main_v47_apply]
  show (Ideal.ofBits .f32 0x3F800000#32 : EReal)
      - (((IntOp.cmpi .eq (IntOp.addi (BitVec.ofNat 32 r.val) 0#32) (BitVec.ofNat 32 c.val)).toNat : ℝ) : EReal) = _
  have hadd : IntOp.addi (BitVec.ofNat 32 r.val) 0#32 = BitVec.ofNat 32 r.val := by
    show BitVec.ofNat 32 r.val + 0#32 = _
    exact BitVec.add_zero _
  rw [ofBits_one, hadd]
  by_cases h : r = c
  · subst h
    have hb : IntOp.cmpi .eq (BitVec.ofNat 32 r.val) (BitVec.ofNat 32 r.val) = 1#1 := by
      show BitVec.ofBool (BitVec.ofNat 32 r.val == BitVec.ofNat 32 r.val) = 1#1
      rw [beq_self_eq_true]; rfl
    rw [if_pos rfl, hb]; exact one_sub_bit_one
  · have hb : IntOp.cmpi .eq (BitVec.ofNat 32 r.val) (BitVec.ofNat 32 c.val) = 0#1 := by
      show BitVec.ofBool (BitVec.ofNat 32 r.val == BitVec.ofNat 32 c.val) = 0#1
      rw [show (BitVec.ofNat 32 r.val == BitVec.ofNat 32 c.val) = false from
        beq_eq_false_iff_ne.2 fun e => h ((iota_eq_iff r c).1 e)]
      rfl
    rw [if_neg h, hb]; exact one_sub_bit_zero

/-- One term of a denominator: at (r, c) the masked exponential is zero on the diagonal (zero times ANY extended
    real is zero) and off it the exponential of twice the similarity, the division by one half being the
    multiplication by two. -/
theorem term_apply (x0 x1 : (⟨S4096x128, .f32⟩ : BufTy).Contents (Elt Ideal)) (r c : Fin 8192) :
    val_main_v57 (F := Ideal) x0 x1 (ix2 r c)
      = if r = c then (0 : EReal)
        else Ideal.exp ((∑ k : Fin 128, val_main_v6 (F := Ideal) x0 x1 (ix2 r k) * val_main_v7 (F := Ideal) x0 x1 (ix2 k c)) * ((2 : ℝ) : EReal)) := by
  rw [val_main_v57_apply, Ideal.mulf_def, mask_apply]
  by_cases h : r = c
  · rw [if_pos h, if_pos h, zero_mul]
  · have hl : ∀ k : Fin 128, lidx_main_v8 (ix2 r c) k = ix2 r k := fun k => funext fun a => by
      match a with
      | ⟨0, _⟩ => rfl
      | ⟨1, _⟩ => rfl
    have hr : ∀ k : Fin 128, ridx_main_v8 (ix2 r c) k = ix2 k c := fun k => funext fun a => by
      match a with
      | ⟨0, _⟩ => rfl
      | ⟨1, _⟩ => rfl
    have h2 : ((1 / 0.5 : ℝ)) = 2 := by norm_num
    rw [if_neg h, if_neg h, one_mul, val_main_v56_apply, Ideal.hostUnary_exp_def, val_main_v55_apply, Ideal.hostDivf_def,
      val_main_v54_apply, val_main_cst_11_apply, Ideal.ofBits_def, ofBits_half,
      Ideal.div_coe (by norm_num : (0.5 : ℝ) ≠ 0), h2, val_main_v8_apply]
    simp only [hl, hr]

/-- THE DENOMINATORS: row r's is the sum over the columns c ≠ r of the exponential of twice the similarity of rows r
    and c of the stacked unit rows (the diagonal term contributes zero). -/
theorem den_apply (x0 x1 : (⟨S4096x128, .f32⟩ : BufTy).Contents (Elt Ideal)) (r : Fin 8192) :
    val_main_v58 (F := Ideal) x0 x1 (ix1 r)
      = ∑ c : Fin 8192,
          (if r = c then (0 : EReal)
           else Ideal.exp ((∑ k : Fin 128, val_main_v6 (F := Ideal) x0 x1 (ix2 r k) * val_main_v7 (F := Ideal) x0 x1 (ix2 k c)) * ((2 : ℝ) : EReal))) := by
  have hi : ∀ c : Fin 8192, idx_main_v58 (ix1 r) c = ix2 r c := fun c => funext fun a => by
    match a with
    | ⟨0, _⟩ => rfl
    | ⟨1, _⟩ => rfl
  rw [val_main_v58_apply, val_main_cst_12_apply, Ideal.ofBits_def, Ideal.ofBits_zero_f32, zero_add]
  refine Finset.sum_congr rfl fun c _ => ?_
  rw [hi c]
  exact term_apply x0 x1 r c

/-! ## The program's stages as plain composed terms -/

section Stages
variable {F : FTy → Type} [FloatOps F]

/-- A [4096,128] array with every row divided by its Euclidean norm. -/
def unitRows (x : FVec F S4096x128 .f32) : FVec F S4096x128 .f32 :=
  Host.divf x (broadcastInDim S4096x128 ![0, 1] bcast_S4096x1_S4096x128_0_1 (Host.sqrt (broadcastInDim S4096x1 ![0] bcast_S4096_S4096x1_0
    (Host.reduceAdd (mulf x x) (constant S_ .f32 0x00000000#32) reducesTo_S4096x128_S4096_d1 h_S_))))

/-- The two inputs' unit rows stacked: [8192,128]. -/
def stacked (a0 a1 : FVec F S4096x128 .f32) : FVec F S8192x128 .f32 :=
  concatenate S8192x128 0 [⟨S4096x128, unitRows a0⟩, ⟨S4096x128, unitRows a1⟩] concatenates_S4096x128_S4096x128_S8192x128_d0

/-- The loss from the positives P and the denominators D: the mean over the 8192 rows of −log(exp(P / 0.5) / D). -/
def lossOf (P D : FVec F S8192 .f32) : FVec F S_ .f32 :=
  Host.divf (Host.reduceAdd (Host.negf (Host.log (Host.divf (Host.exp (Host.divf P (broadcastInDim S8192 ![] bcast_S_S8192 (constant S_ .f32 0x3F000000#32)))) D)))
      (constant S_ .f32 0x00000000#32) reducesTo_S8192_S_d0 h_S_) (constant S_ .f32 0x46000000#32)

theorem v2_eq (x0 : FVec F S4096x128 .f32) : val_main_v2 (F := F) x0 = unitRows x0 := rfl
theorem v5_eq (x1 : FVec F S4096x128 .f32) : val_main_v5 (F := F) x1 = unitRows x1 := rfl
theorem v6_eq (x0 x1 : FVec F S4096x128 .f32) : val_main_v6 (F := F) x0 x1 = stacked x0 x1 := rfl
theorem v7_eq (x0 x1 : FVec F S4096x128 .f32) :
    val_main_v7 (F := F) x0 x1 = transpose S128x8192 [1, 0] (stacked x0 x1) transposes_S8192x128_S128x8192_1_0 := rfl
theorem v42_eq (x0 x1 : FVec F S4096x128 .f32) :
    val_main_v42 (F := F) x0 x1
      = concatenate S8192 0 [⟨S4096, val_main_v25 (F := F) x0 x1⟩, ⟨S4096, val_main_v41 (F := F) x0 x1⟩] concatenates_S4096_S4096_S8192_d0 := rfl
theorem v63_eq (x0 x1 : FVec F S4096x128 .f32) :
    val_main_v63 (F := F) x0 x1 = lossOf (val_main_v42 (F := F) x0 x1) (val_main_v58 (F := F) x0 x1) := rfl

end Stages

end Cert.ReferenceIdeal.RefSide

end
-- ==== Proof.RefPositives.lean ====
/-
  The reference's positives at the ideal values (a float is an extended real).

  The reference stacks the two row-normalised inputs z_i, z_j ([4096,128] each) into one [8192,128] array, takes the
  full [8192,8192] matrix of row products sim(r, c) = ∑ k, reps(r, k) · reps(c, k), and gathers out of it the entries
  sim(p, p + 4096) and sim(p + 4096, p) for p < 4096. The start indices of the two gathers are the row numbers p and
  p + 4096 as 32-bit words, each passed through the normalisation select (w < 0, w + 8192, w) of a possibly negative
  index, which keeps a word that is not negative; read signed and clamped into [0, 8191] they are the naturals
  themselves. So the first gather at p is ∑ k, z_i(p, k) · z_j(p, k) and the second ∑ k, z_j(p, k) · z_i(p, k)
  (pos_fst, pos_snd). The general read lemmas — the gather of single elements of a square array at pairs of start
  indices, the two-piece concatenations of rank-2 arrays along either axis, the words of small naturals — are stated
  over variables first.
-/
import proofs.«160661_j53128745451704_2_alg».proof.Proof.RefRead
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefPositives

open Cert.ReferenceIdeal Cert.ReferenceIdeal.Gen Cert.ReferenceIdeal.Read Idealize.ShloMosaic Idealize.ShloMosaic.ValueIdx
open scoped BigOperators

/-! ## General read lemmas, over variables -/

section Gather
variable {α : Type}

/-- The gather of single elements of a square array at pairs of start indices, read at a position: the operand at
    (row, column) = the two start indices of that position, each read signed and clamped into the array. -/
theorem gather_pair_apply (x : S8192x8192.Idx → α) (idx : IVec S4096x2 32) (p : Fin 4096) :
    Host.gather gather_S8192x8192_S4096x2_S4096_n_01_n_n_01_1_11 x idx (ix1 p)
      = x (ix2 (⟨min (idx (ix2 p (0 : Fin 2))).toInt.toNat 8191, by omega⟩ : Fin 8192)
               (⟨min (idx (ix2 p (1 : Fin 2))).toInt.toNat 8191, by omega⟩ : Fin 8192)) := by
  unfold Host.gather
  congr 1
  funext a
  refine Fin.ext ?_
  match a with
  | ⟨0, _⟩ =>
    show gather_S8192x8192_S4096x2_S4096_n_01_n_n_01_1_11.start (ix1 p) idx 0
        + gather_S8192x8192_S4096x2_S4096_n_01_n_n_01_1_11.batchCoord (ix1 p) 0
        + gather_S8192x8192_S4096x2_S4096_n_01_n_n_01_1_11.offCoord (ix1 p) 0 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (0 : Fin 2) ∈ gather_S8192x8192_S4096x2_S4096_n_01_n_n_01_1_11.startIndexMap by decide)]
    have hsi : gather_S8192x8192_S4096x2_S4096_n_01_n_n_01_1_11.siIdx (ix1 p)
        ⟨List.idxOf (0 : Fin 2) gather_S8192x8192_S4096x2_S4096_n_01_n_n_01_1_11.startIndexMap,
          List.idxOf_lt_length_iff.2 (by decide)⟩ = ix2 p (0 : Fin 2) := by
      funext b; refine Fin.ext ?_
      match b with
      | ⟨0, _⟩ => rfl
      | ⟨1, _⟩ => rfl
    rw [hsi]
    rfl
  | ⟨1, _⟩ =>
    show gather_S8192x8192_S4096x2_S4096_n_01_n_n_01_1_11.start (ix1 p) idx 1
        + gather_S8192x8192_S4096x2_S4096_n_01_n_n_01_1_11.batchCoord (ix1 p) 1
        + gather_S8192x8192_S4096x2_S4096_n_01_n_n_01_1_11.offCoord (ix1 p) 1 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (1 : Fin 2) ∈ gather_S8192x8192_S4096x2_S4096_n_01_n_n_01_1_11.startIndexMap by decide)]
    have hsi : gather_S8192x8192_S4096x2_S4096_n_01_n_n_01_1_11.siIdx (ix1 p)
        ⟨List.idxOf (1 : Fin 2) gather_S8192x8192_S4096x2_S4096_n_01_n_n_01_1_11.startIndexMap,
          List.idxOf_lt_length_iff.2 (by decide)⟩ = ix2 p (1 : Fin 2) := by
      funext b; refine Fin.ext ?_
      match b with
      | ⟨0, _⟩ => rfl
      | ⟨1, _⟩ => rfl
    rw [hsi]
    rfl

end Gather

section Concat
variable {α : Type}

/-- A two-piece concatenation of rank-2 arrays along axis 0, read in a row of the first piece. -/
theorem concatenate_rows_left {n₁ n₂ n m : Nat} (x₁ : (⟨2, ![n₁, m]⟩ : Shape).Idx → α) (x₂ : (⟨2, ![n₂, m]⟩ : Shape).Idx → α)
    (h : Shape.Concatenates [⟨2, ![n₁, m]⟩, ⟨2, ![n₂, m]⟩] ⟨2, ![n, m]⟩ 0) (r : Fin n₁) (hr : r.val < n) (k : Fin m) :
    concatenate ⟨2, ![n, m]⟩ 0 [⟨⟨2, ![n₁, m]⟩, x₁⟩, ⟨⟨2, ![n₂, m]⟩, x₂⟩] h (ix2 (⟨r.val, hr⟩ : Fin n) k) = x₁ (ix2 r k) :=
  concatenate_pair_apply_left 0 x₁ x₂ h _ rfl (ix2 r k) (fun b => match b with | ⟨0, _⟩ => rfl | ⟨1, _⟩ => rfl)

/-- A two-piece concatenation of rank-2 arrays along axis 0, read in a row of the second piece: the row index is the
    first piece's number of rows plus the row within the second piece. -/
theorem concatenate_rows_right {n₁ n₂ n m : Nat} (x₁ : (⟨2, ![n₁, m]⟩ : Shape).Idx → α) (x₂ : (⟨2, ![n₂, m]⟩ : Shape).Idx → α)
    (h : Shape.Concatenates [⟨2, ![n₁, m]⟩, ⟨2, ![n₂, m]⟩] ⟨2, ![n, m]⟩ 0) (r : Fin n₂) (hr : r.val + n₁ < n) (k : Fin m) :
    concatenate ⟨2, ![n, m]⟩ 0 [⟨⟨2, ![n₁, m]⟩, x₁⟩, ⟨⟨2, ![n₂, m]⟩, x₂⟩] h (ix2 (⟨r.val + n₁, hr⟩ : Fin n) k) = x₂ (ix2 r k) :=
  concatenate_pair_apply_right 0 x₁ x₂ h _ rfl rfl (ix2 r k)
    (fun b hb => match b, hb with | ⟨0, _⟩, hb => absurd rfl hb | ⟨1, _⟩, _ => rfl) rfl

/-- A two-piece concatenation of rank-2 arrays along axis 1, read in a column of the first piece. -/
theorem concatenate_cols_left {n m₁ m₂ m : Nat} (x₁ : (⟨2, ![n, m₁]⟩ : Shape).Idx → α) (x₂ : (⟨2, ![n, m₂]⟩ : Shape).Idx → α)
    (h : Shape.Concatenates [⟨2, ![n, m₁]⟩, ⟨2, ![n, m₂]⟩] ⟨2, ![n, m]⟩ 1) (r : Fin n) (c : Fin m₁) (hc : c.val < m) :
    concatenate ⟨2, ![n, m]⟩ 1 [⟨⟨2, ![n, m₁]⟩, x₁⟩, ⟨⟨2, ![n, m₂]⟩, x₂⟩] h (ix2 r (⟨c.val, hc⟩ : Fin m)) = x₁ (ix2 r c) :=
  concatenate_pair_apply_left 1 x₁ x₂ h _ rfl (ix2 r c) (fun b => match b with | ⟨0, _⟩ => rfl | ⟨1, _⟩ => rfl)

/-- A two-piece concatenation of rank-2 arrays along axis 1, read in a column of the second piece: the column index
    is the first piece's number of columns plus the column within the second piece. -/
theorem concatenate_cols_right {n m₁ m₂ m : Nat} (x₁ : (⟨2, ![n, m₁]⟩ : Shape).Idx → α) (x₂ : (⟨2, ![n, m₂]⟩ : Shape).Idx → α)
    (h : Shape.Concatenates [⟨2, ![n, m₁]⟩, ⟨2, ![n, m₂]⟩] ⟨2, ![n, m]⟩ 1) (r : Fin n) (c : Fin m₂) (hc : c.val + m₁ < m) :
    concatenate ⟨2, ![n, m]⟩ 1 [⟨⟨2, ![n, m₁]⟩, x₁⟩, ⟨⟨2, ![n, m₂]⟩, x₂⟩] h (ix2 r (⟨c.val + m₁, hc⟩ : Fin m)) = x₂ (ix2 r c) :=
  concatenate_pair_apply_right 1 x₁ x₂ h _ rfl rfl (ix2 r c)
    (fun b hb => match b, hb with | ⟨0, _⟩, _ => rfl | ⟨1, _⟩, hb => absurd rfl hb) rfl

end Concat

/-! ## The 32-bit words of small naturals -/

/-- A small natural number's 32-bit word reads back, signed, as the number. -/
theorem toInt_ofNat_small (n : Nat) (h : n < 2147483648) : (BitVec.ofNat 32 n).toInt = (n : Int) := by
  rw [BitVec.toInt_eq_toNat_cond, BitVec.toNat_ofNat, Nat.mod_eq_of_lt (by omega)]
  rw [if_pos (by omega)]

/-- … so it is not below zero … -/
theorem slt_zero_ofNat (n : Nat) (h : n < 2147483648) : IntOp.cmpi .slt (BitVec.ofNat 32 n) 0#32 = 0#1 := by
  have : (BitVec.ofNat 32 n).slt 0#32 = false := by
    rw [BitVec.slt, toInt_ofNat_small n h]
    simp
  show BitVec.ofBool ((BitVec.ofNat 32 n).slt 0#32) = 0#1
  rw [this]; rfl

/-- … and as a start index into an axis of 8192 it clamps to itself when below 8192. -/
theorem clamp_ofNat (n : Nat) (h : n < 8192) : min (BitVec.ofNat 32 n).toInt.toNat 8191 = n := by
  rw [toInt_ofNat_small n (by omega)]
  simp only [Int.toNat_natCast]
  omega

/-- Adding words of naturals is the word of the sum. -/
theorem addi_ofNat (n m : Nat) : IntOp.addi (BitVec.ofNat 32 n) (BitVec.ofNat 32 m) = BitVec.ofNat 32 (n + m) := by
  show BitVec.ofNat 32 n + BitVec.ofNat 32 m = _
  rw [BitVec.ofNat_add]

/-- jnp's normalisation of a possibly negative index, select (w < 0, w + 8192, w), keeps the word of a small natural. -/
theorem normalise_ofNat (n : Nat) (h : n < 2147483648) (z alt : BitVec 32) (hz : z = 0#32) :
    Scalar.select (IntOp.cmpi .slt (BitVec.ofNat 32 n) z) alt (BitVec.ofNat 32 n) = BitVec.ofNat 32 n := by
  rw [hz, slt_zero_ofNat n h, select_zero]

section GatherAt
variable {α : Type}

/-- The same gather where the two start indices of position p are the words of naturals r, c inside the array: the
    operand at (r, c). -/
theorem gather_pair_at (x : S8192x8192.Idx → α) (idx : IVec S4096x2 32) (p : Fin 4096) (r c : Fin 8192)
    (hr : idx (ix2 p (0 : Fin 2)) = BitVec.ofNat 32 r.val) (hc : idx (ix2 p (1 : Fin 2)) = BitVec.ofNat 32 c.val) :
    Host.gather gather_S8192x8192_S4096x2_S4096_n_01_n_n_01_1_11 x idx (ix1 p) = x (ix2 r c) := by
  refine (gather_pair_apply x idx p).trans (congrArg x (funext fun a => Fin.ext ?_))
  match a with
  | ⟨0, _⟩ =>
    show min (idx (ix2 p (0 : Fin 2))).toInt.toNat 8191 = r.val
    rw [hr]; exact clamp_ofNat r.val r.isLt
  | ⟨1, _⟩ =>
    show min (idx (ix2 p (1 : Fin 2))).toInt.toNat 8191 = c.val
    rw [hc]; exact clamp_ofNat c.val c.isLt

end GatherAt

/-! ## The reference's index arrays at a position -/

/-- The row numbers 0 … 4095 pass the normalisation unchanged. -/
theorem v16_at (p : Fin 4096) : val_main_v16 (F := Ideal) (ix1 p) = BitVec.ofNat 32 p.val := by
  have hz : val_main_v12 (F := Ideal) (ix1 p) = 0#32 := (val_main_v12_apply _).trans rfl
  show Scalar.select (IntOp.cmpi .slt (BitVec.ofNat 32 p.val) (val_main_v12 (F := Ideal) (ix1 p)))
      (val_main_v15 (F := Ideal) (ix1 p)) (BitVec.ofNat 32 p.val) = _
  exact normalise_ofNat p.val (by have := p.isLt; omega) _ _ hz

/-- The row numbers shifted by 4096. -/
theorem v11_at (p : Fin 4096) : val_main_v11 (F := Ideal) (ix1 p) = BitVec.ofNat 32 (p.val + 4096) := by
  have hc : val_main_v10 (F := Ideal) (ix1 p) = BitVec.ofNat 32 4096 := (val_main_v10_apply _).trans rfl
  show IntOp.addi (BitVec.ofNat 32 p.val) (val_main_v10 (F := Ideal) (ix1 p)) = _
  rw [hc]; exact addi_ofNat p.val 4096

/-- They pass the normalisation unchanged too. -/
theorem v21_at (p : Fin 4096) : val_main_v21 (F := Ideal) (ix1 p) = BitVec.ofNat 32 (p.val + 4096) := by
  have hz : val_main_v17 (F := Ideal) (ix1 p) = 0#32 := (val_main_v17_apply _).trans rfl
  show Scalar.select (IntOp.cmpi .slt (val_main_v11 (F := Ideal) (ix1 p)) (val_main_v17 (F := Ideal) (ix1 p)))
      (val_main_v20 (F := Ideal) (ix1 p)) (val_main_v11 (F := Ideal) (ix1 p)) = _
  rw [v11_at]
  exact normalise_ofNat (p.val + 4096) (by have := p.isLt; omega) _ _ hz

/-- The second gather's shifted row numbers. -/
theorem v27_at (p : Fin 4096) : val_main_v27 (F := Ideal) (ix1 p) = BitVec.ofNat 32 (p.val + 4096) := by
  have hc : val_main_v26 (F := Ideal) (ix1 p) = BitVec.ofNat 32 4096 := (val_main_v26_apply _).trans rfl
  show IntOp.addi (BitVec.ofNat 32 p.val) (val_main_v26 (F := Ideal) (ix1 p)) = _
  rw [hc]; exact addi_ofNat p.val 4096

theorem v32_at (p : Fin 4096) : val_main_v32 (F := Ideal) (ix1 p) = BitVec.ofNat 32 (p.val + 4096) := by
  have hz : val_main_v28 (F := Ideal) (ix1 p) = 0#32 := (val_main_v28_apply _).trans rfl
  show Scalar.select (IntOp.cmpi .slt (val_main_v27 (F := Ideal) (ix1 p)) (val_main_v28 (F := Ideal) (ix1 p)))
      (val_main_v31 (F := Ideal) (ix1 p)) (val_main_v27 (F := Ideal) (ix1 p)) = _
  rw [v27_at]
  exact normalise_ofNat (p.val + 4096) (by have := p.isLt; omega) _ _ hz

theorem v37_at (p : Fin 4096) : val_main_v37 (F := Ideal) (ix1 p) = BitVec.ofNat 32 p.val := by
  have hz : val_main_v33 (F := Ideal) (ix1 p) = 0#32 := (val_main_v33_apply _).trans rfl
  show Scalar.select (IntOp.cmpi .slt (BitVec.ofNat 32 p.val) (val_main_v33 (F := Ideal) (ix1 p)))
      (val_main_v36 (F := Ideal) (ix1 p)) (BitVec.ofNat 32 p.val) = _
  exact normalise_ofNat p.val (by have := p.isLt; omega) _ _ hz

/-- The first gather's start indices at position p: (p, p + 4096). -/
theorem v24_fst (p : Fin 4096) : val_main_v24 (F := Ideal) (ix2 p (0 : Fin 2)) = BitVec.ofNat 32 p.val := by
  unfold val_main_v24
  refine (concatenate_cols_left _ _ concatenates_S4096x1_S4096x1_S4096x2_d1 p (0 : Fin 1) (by decide)).trans ?_
  refine (val_main_v22_apply _).trans ?_
  have e : idx_main_v22 (ix2 p (0 : Fin 1)) = ix1 p := funext fun a => match a with | ⟨0, _⟩ => rfl
  exact (congrArg (val_main_v16 (F := Ideal)) e).trans (v16_at p)

theorem v24_snd (p : Fin 4096) : val_main_v24 (F := Ideal) (ix2 p (1 : Fin 2)) = BitVec.ofNat 32 (p.val + 4096) := by
  unfold val_main_v24
  refine (concatenate_cols_right _ _ concatenates_S4096x1_S4096x1_S4096x2_d1 p (0 : Fin 1) (by decide)).trans ?_
  refine (val_main_v23_apply _).trans ?_
  have e : idx_main_v23 (ix2 p (0 : Fin 1)) = ix1 p := funext fun a => match a with | ⟨0, _⟩ => rfl
  exact (congrArg (val_main_v21 (F := Ideal)) e).trans (v21_at p)

/-- The second gather's start indices at position p: (p + 4096, p). -/
theorem v40_fst (p : Fin 4096) : val_main_v40 (F := Ideal) (ix2 p (0 : Fin 2)) = BitVec.ofNat 32 (p.val + 4096) := by
  unfold val_main_v40
  refine (concatenate_cols_left _ _ concatenates_S4096x1_S4096x1_S4096x2_d1 p (0 : Fin 1) (by decide)).trans ?_
  refine (val_main_v38_apply _).trans ?_
  have e : idx_main_v38 (ix2 p (0 : Fin 1)) = ix1 p := funext fun a => match a with | ⟨0, _⟩ => rfl
  exact (congrArg (val_main_v32 (F := Ideal)) e).trans (v32_at p)

theorem v40_snd (p : Fin 4096) : val_main_v40 (F := Ideal) (ix2 p (1 : Fin 2)) = BitVec.ofNat 32 p.val := by
  unfold val_main_v40
  refine (concatenate_cols_right _ _ concatenates_S4096x1_S4096x1_S4096x2_d1 p (0 : Fin 1) (by decide)).trans ?_
  refine (val_main_v39_apply _).trans ?_
  have e : idx_main_v39 (ix2 p (0 : Fin 1)) = ix1 p := funext fun a => match a with | ⟨0, _⟩ => rfl
  exact (congrArg (val_main_v37 (F := Ideal)) e).trans (v37_at p)

/-! ## The stacked rows and the similarity matrix at the gathered positions -/

/-- Row p of the stacked array is row p of the first normalised input … -/
theorem reps_top (x0 x1 : (⟨S4096x128, .f32⟩ : BufTy).Contents (Elt Ideal)) (p : Fin 4096) (hp : p.val < 8192) (k : Fin 128) :
    val_main_v6 (F := Ideal) x0 x1 (ix2 (⟨p.val, hp⟩ : Fin 8192) k) = val_main_v2 (F := Ideal) x0 (ix2 p k) := by
  unfold val_main_v6
  exact concatenate_rows_left _ _ concatenates_S4096x128_S4096x128_S8192x128_d0 p hp k

/-- … and row p + 4096 is row p of the second. -/
theorem reps_bot (x0 x1 : (⟨S4096x128, .f32⟩ : BufTy).Contents (Elt Ideal)) (p : Fin 4096) (hp : p.val + 4096 < 8192) (k : Fin 128) :
    val_main_v6 (F := Ideal) x0 x1 (ix2 (⟨p.val + 4096, hp⟩ : Fin 8192) k) = val_main_v5 (F := Ideal) x1 (ix2 p k) := by
  unfold val_main_v6
  exact concatenate_rows_right _ _ concatenates_S4096x128_S4096x128_S8192x128_d0 p hp k

/-- The similarity matrix at (r, c) is the product of rows r and c of the stacked array. -/
theorem sim_apply (x0 x1 : (⟨S4096x128, .f32⟩ : BufTy).Contents (Elt Ideal)) (r c : Fin 8192) :
    val_main_v8 (F := Ideal) x0 x1 (ix2 r c)
      = ∑ k : Fin 128, val_main_v6 (F := Ideal) x0 x1 (ix2 r k) * val_main_v6 (F := Ideal) x0 x1 (ix2 c k) := by
  refine (val_main_v8_apply x0 x1 (ix2 r c)).trans (Finset.sum_congr rfl fun k _ => ?_)
  have el : lidx_main_v8 (ix2 r c) k = ix2 r k := funext fun a => match a with | ⟨0, _⟩ => rfl | ⟨1, _⟩ => rfl
  have er : idx_main_v7 (ridx_main_v8 (ix2 r c) k) = ix2 c k := funext fun a => match a with | ⟨0, _⟩ => rfl | ⟨1, _⟩ => rfl
  rw [val_main_v7_apply, el, er]

/-! ## The two gathers -/

theorem pos_fst (x0 x1 : (⟨S4096x128, .f32⟩ : BufTy).Contents (Elt Ideal)) (p : Fin 4096) :
    val_main_v25 (F := Ideal) x0 x1 (ix1 p) = ∑ k : Fin 128, val_main_v2 (F := Ideal) x0 (ix2 p k) * val_main_v5 (F := Ideal) x1 (ix2 p k) := by
  have h1 : p.val < 8192 := by have := p.isLt; omega
  have h2 : p.val + 4096 < 8192 := by have := p.isLt; omega
  unfold val_main_v25
  refine (gather_pair_at _ _ p ⟨p.val, h1⟩ ⟨p.val + 4096, h2⟩ (v24_fst p) (v24_snd p)).trans ?_
  refine (sim_apply x0 x1 _ _).trans (Finset.sum_congr rfl fun k _ => ?_)
  rw [reps_top x0 x1 p h1 k, reps_bot x0 x1 p h2 k]

theorem pos_snd (x0 x1 : (⟨S4096x128, .f32⟩ : BufTy).Contents (Elt Ideal)) (p : Fin 4096) :
    val_main_v41 (F := Ideal) x0 x1 (ix1 p) = ∑ k : Fin 128, val_main_v5 (F := Ideal) x1 (ix2 p k) * val_main_v2 (F := Ideal) x0 (ix2 p k) := by
  have h1 : p.val < 8192 := by have := p.isLt; omega
  have h2 : p.val + 4096 < 8192 := by have := p.isLt; omega
  unfold val_main_v41
  refine (gather_pair_at _ _ p ⟨p.val + 4096, h2⟩ ⟨p.val, h1⟩ (v40_fst p) (v40_snd p)).trans ?_
  refine (sim_apply x0 x1 _ _).trans (Finset.sum_congr rfl fun k _ => ?_)
  rw [reps_top x0 x1 p h1 k, reps_bot x0 x1 p h2 k]

end Cert.ReferenceIdeal.RefPositives

end
-- ==== Proof.Bridge.lean ====
/-
  The two programs' results are one number.

  The kernel program's result is the loss of its positives and of its region's denominators; the reference's is the loss
  of its own positives and denominators. The positives agree row by row (a dot product of the two normalised rows, in
  either order), the denominators agree row by row (the sixteen runs are the whole sum), and the loss is the same chain of
  operations applied to them. The arrays the kernel's region reads are the stacked normalised inputs and their transpose,
  which are the reference's own operands: a change of float format is the identity on the extended reals.
-/
import proofs.«160661_j53128745451704_2_alg».proof.Proof.Accum
import proofs.«160661_j53128745451704_2_alg».proof.Proof.HostSide
import proofs.«160661_j53128745451704_2_alg».proof.Proof.RefSide
import proofs.«160661_j53128745451704_2_alg».proof.Proof.RefPositives
import Idealize.ShloMosaic.PureOps.Ideal.Laws

noncomputable section

namespace Cert.Bridge

open Idealize.ShloMosaic Idealize.ShloMosaic.TcCoe Idealize.SL.Sem Idealize.ShloMosaic.ValueIdx
open Cert.KernelIdeal Cert.KernelIdeal.Gen Cert.KernelIdeal.HostSide Cert.KernelIdeal.Accum Cert.Contrast

variable (m : (ℓ : Loc nD τ sig) → Buf (Elt Ideal) ℓ) (ρ : Dev nD → PrngReg)

/-- The kernel program's result: the loss of its positives and of the region's denominators. -/
def kernelLoss (c : Dev nD) : Buf (Elt Ideal) ((c.tc : Thread nD τ).loc main_v21) :=
  lossOf (F := Ideal) (positives (F := Ideal) (V m c main_v2) (V m c main_v5)) (asVector (F := Ideal) ((dats m 0 c).arrAt 2 cfg0.N))

/-- The kernel program's run, read: its result buffer ends at `kernelLoss`, its arguments unchanged. -/
theorem kernel_run : θ_run defs (onTc (τ := τ) (main (F := Ideal))) ⟨m, fun _ => 0, ρ⟩ (fun r => ∀ c : Dev nD,
      r.2.mem ((c.tc : Thread nD τ).loc main_v21) = kernelLoss m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- A row of the product of two [4096,128] arrays, summed over its 128 columns from zero: the rows' dot product. -/
theorem rowdot_apply (zi zj : FVec Ideal S4096x128 .f32) (p : Fin 4096) :
    (Host.reduceAdd (F := Ideal) (mulf zi zj) (constant S_ .f32 0x00000000#32) reducesTo_S4096x128_S4096_d1 h_S_) (ix1 p)
      = ∑ k : Fin 128, zi (ix2 p k) * zj (ix2 p k) := by
  simp only [Host.reduceAdd, Ideal.hostReduceAdd_def]
  rw [Ideal.hostReduceAdd_single reducesTo_S4096x128_S4096_d1 (by decide)]
  show Ideal.ofBits .f32 0x00000000#32 + _ = _
  rw [Ideal.ofBits_zero_f32, zero_add]
  refine Finset.sum_congr rfl fun k _ => ?_
  show zi _ * zj _ = _
  have e : ∀ (h : S4096x128.Reduces [1] S4096), h.lift (ix1 p) k = ix2 p k := fun h =>
    funext fun a => Fin.ext (by match a with | ⟨0, _⟩ => rfl | ⟨1, _⟩ => rfl)
  rw [e]
  rfl

/-- The arrays the region reads are the reference's operands: the stacked normalised inputs, and their transpose. -/
theorem arrA_eq (c : Dev nD) (a : Fin 8192) (k : Fin 128) :
    arrA m c a k = Cert.ReferenceIdeal.Read.val_main_v6 (F := Ideal) (m ((c : Thread nD τ).loc main_arg0)) (m ((c : Thread nD τ).loc main_arg1)) (ix2 a k) := by
  unfold arrA
  rw [V_v7 m c, Cert.ReferenceIdeal.RefSide.v6_eq]
  rfl

theorem arrB_eq (c : Dev nD) (k : Fin 128) (b : Fin 8192) :
    arrB m c k b = Cert.ReferenceIdeal.Read.val_main_v7 (F := Ideal) (m ((c : Thread nD τ).loc main_arg0)) (m ((c : Thread nD τ).loc main_arg1)) (ix2 k b) := by
  unfold arrB
  rw [V_v8 m c, Cert.ReferenceIdeal.RefSide.v7_eq]
  rfl

/-- The reference's result is the kernel program's. -/
theorem result_eq (c : Dev nD) :
    Cert.ReferenceIdeal.Read.val_main_v63 (F := Ideal) (m ((c : Thread nD τ).loc main_arg0)) (m ((c : Thread nD τ).loc main_arg1))
      = kernelLoss m c := by
  rw [Cert.ReferenceIdeal.RefSide.v63_eq]
  unfold kernelLoss
  have hD : Cert.ReferenceIdeal.Read.val_main_v58 (F := Ideal) (m ((c : Thread nD τ).loc main_arg0)) (m ((c : Thread nD τ).loc main_arg1))
      = asVector (F := Ideal) ((dats m 0 c).arrAt 2 cfg0.N) := by
    funext i
    obtain ⟨r, rfl⟩ : ∃ r : Fin 8192, i = ix1 r := ⟨i 0, eq_ix1 i⟩
    rw [Cert.ReferenceIdeal.RefSide.den_apply, asVector_apply]
    refine Eq.trans ?_ (region_den m c r).symm
    unfold den term sim
    refine Finset.sum_congr rfl fun cc _ => ?_
    simp only [arrA_eq m c, arrB_eq m c]
  have h25 : Cert.ReferenceIdeal.Read.val_main_v25 (F := Ideal) (m ((c : Thread nD τ).loc main_arg0)) (m ((c : Thread nD τ).loc main_arg1))
      = Host.reduceAdd (F := Ideal) (mulf (V m c main_v2) (V m c main_v5)) (constant S_ .f32 0x00000000#32) reducesTo_S4096x128_S4096_d1 h_S_ := by
    funext i
    obtain ⟨p, rfl⟩ : ∃ p : Fin 4096, i = ix1 p := ⟨i 0, eq_ix1 i⟩
    rw [Cert.ReferenceIdeal.RefPositives.pos_fst]
    refine Eq.trans ?_ (rowdot_apply _ _ p).symm
    rw [V_v2 m c, V_v5 m c, Cert.ReferenceIdeal.RefSide.v2_eq, Cert.ReferenceIdeal.RefSide.v5_eq]
    rfl
  have h41 : Cert.ReferenceIdeal.Read.val_main_v41 (F := Ideal) (m ((c : Thread nD τ).loc main_arg0)) (m ((c : Thread nD τ).loc main_arg1))
      = Host.reduceAdd (F := Ideal) (mulf (V m c main_v2) (V m c main_v5)) (constant S_ .f32 0x00000000#32) reducesTo_S4096x128_S4096_d1 h_S_ := by
    funext i
    obtain ⟨p, rfl⟩ : ∃ p : Fin 4096, i = ix1 p := ⟨i 0, eq_ix1 i⟩
    rw [Cert.ReferenceIdeal.RefPositives.pos_snd]
    refine Eq.trans ?_ (rowdot_apply _ _ p).symm
    rw [V_v2 m c, V_v5 m c, Cert.ReferenceIdeal.RefSide.v2_eq, Cert.ReferenceIdeal.RefSide.v5_eq]
    exact Finset.sum_congr rfl fun k _ => mul_comm _ _
  rw [hD, Cert.ReferenceIdeal.RefSide.v42_eq, h25, h41]
  rfl

end Cert.Bridge

end
-- ==== Proof.lean ====
/-
  The contrastive loss of two batches of 4096 embeddings: a kernel that adds each row's denominator in sixteen runs of 512
  columns, against the plain reference that adds the 8192 columns at once.

  Both programs divide every row of the two inputs by the square root of the sum of its squares and stack the results
  into one array `R` of 8192 rows. Row `r`'s denominator is the sum over the columns `c ≠ r` of `exp (2 · ⟨R r, R c⟩)`;
  its positive is `⟨R r, R (r ± 4096)⟩`; the loss is the mean over the rows of `−log (exp (2 · positive) / denominator)`.

  * The kernel excludes the row's own column by exponentiating a constant named the bottom of the extended reals
    (`exp ⊥ = 0`); the reference multiplies that column's term by zero (`0 · y = 0` for every extended real `y`).
  * The kernel scales the similarity by `2`, the reference divides it by `0.5`: one function on every extended real.
  * The kernel adds the columns run by run, carrying the sum in a scratch column that starts each row block at zero; the
    reference adds them in one sum: the same number, since addition on the extended reals is commutative and
    associative.
  * The kernel takes each positive once as a row-wise dot product and uses it for both halves; the reference reads both
    halves out of the full similarity matrix: equal by commutativity of the product.
  * The rest — the normalisation before and the logarithm and mean after — is the same chain of operations in both.
  No entry is asked to be finite: the precondition is never opened.
-/
import proofs.«160661_j53128745451704_2_alg».proof.Defs
import proofs.«160661_j53128745451704_2_alg».proof.Proof.Gen.Kernel
import proofs.«160661_j53128745451704_2_alg».proof.Proof.Gen.Kernel.Skeleton
import proofs.«160661_j53128745451704_2_alg».proof.Proof.Gen.Kernel.Launch
import proofs.«160661_j53128745451704_2_alg».proof.Proof.Gen.Kernel.Points
import proofs.«160661_j53128745451704_2_alg».proof.Proof.Gen.Kernel.Frame
import proofs.«160661_j53128745451704_2_alg».proof.Proof.Gen.KernelIdeal
import proofs.«160661_j53128745451704_2_alg».proof.Proof.Gen.KernelIdeal.Skeleton
import proofs.«160661_j53128745451704_2_alg».proof.Proof.Gen.KernelIdeal.Launch
import proofs.«160661_j53128745451704_2_alg».proof.Proof.Gen.KernelIdeal.Points
import proofs.«160661_j53128745451704_2_alg».proof.Proof.Gen.KernelIdeal.Frame
import proofs.«160661_j53128745451704_2_alg».proof.Proof.Gen.ReferenceIdeal
import proofs.«160661_j53128745451704_2_alg».proof.Proof.Gen.Pre_finite_inputs
import proofs.«160661_j53128745451704_2_alg».proof.Proof.RefRun
import proofs.«160661_j53128745451704_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a host program: its frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The one rewrite of the idealization: the mask's fill constant is named the bottom of the extended reals. -/
theorem preserves : Cert.preserves_Kernel_KernelIdeal :=
  IdealRules.named_const.statement Cert.KernelIdeal.κ "neg_big" .f32 0xCE6E6B28#32 ⊥ rfl

/-- Both programs end with the loss of the same positives and the same denominators. -/
theorem algebraic : Cert.algebraic_KernelIdeal_ReferenceIdeal := by
  intro m ρ m' ρ' _ hagree
  refine ⟨fun c => Cert.Bridge.kernelLoss m c, Cert.Bridge.kernel_run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.Bridge.result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
